-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_v35) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x10x128 : Shape := ⟨3, ![10000, 10, 128]⟩
abbrev S1280x1280 : Shape := ⟨2, ![1280, 1280]⟩
abbrev S1280 : Shape := ⟨1, ![1280]⟩
abbrev S384x1280 : Shape := ⟨2, ![384, 1280]⟩
abbrev S1x384 : Shape := ⟨2, ![1, 384]⟩
abbrev S_ : Shape := ⟨0, ![]⟩

class Facts : Prop where
  bcast_S_S10000x10x128 : S_.BroadcastsInDim S10000x10x128 (![] : Fin 0 → Fin S10000x10x128.rank)
  reducesTo_S10000x10x128_S_d0_1_2 : S10000x10x128.ReducesTo [0, 1, 2] S_
  h_S_ : 0 < S_.numel
  bcast_S_S1280x1280 : S_.BroadcastsInDim S1280x1280 (![] : Fin 0 → Fin S1280x1280.rank)
  reducesTo_S1280x1280_S_d0_1 : S1280x1280.ReducesTo [0, 1] S_
  bcast_S_S1280 : S_.BroadcastsInDim S1280 (![] : Fin 0 → Fin S1280.rank)
  reducesTo_S1280_S_d0 : S1280.ReducesTo [0] S_
  bcast_S_S384x1280 : S_.BroadcastsInDim S384x1280 (![] : Fin 0 → Fin S384x1280.rank)
  reducesTo_S384x1280_S_d0_1 : S384x1280.ReducesTo [0, 1] S_
  bcast_S_S1x384 : S_.BroadcastsInDim S1x384 (![] : Fin 0 → Fin S1x384.rank)
  reducesTo_S1x384_S_d0_1 : S1x384.ReducesTo [0, 1] S_

variable [Facts]

def fn_part1 {F : FTy → Type} [FloatOps F] (main_arg4 : FVec F S384x1280 .f32) (main_arg5 : FVec F S1x384 .f32) (main_v13 : IVec S_ 1) (main_v16 : IVec S1280 1) : IVec S_ 1 :=
  let main_c_5 : IVec S_ 1 := constantI S_ 1 1#1
  let main_v17 : IVec S_ 1 := (fun x v => Host.reduce IntOp.andi x v reducesTo_S1280_S_d0 h_S_) main_v16 main_c_5
  let main_v18 : IVec S_ 1 := andi main_v13 main_v17
  let main_v19 : FVec F S384x1280 .f32 := Host.absf main_arg4
  let main_cst_6 : FVec F S_ .f32 := constant S_ .f32 0x7F800000#32
  let main_v20 : FVec F S384x1280 .f32 := broadcastInDim S384x1280 ![] bcast_S_S384x1280 main_cst_6
  let main_v21 : IVec S384x1280 1 := cmpf .olt main_v19 main_v20
  let main_c_7 : IVec S_ 1 := constantI S_ 1 1#1
  let main_v22 : IVec S_ 1 := (fun x v => Host.reduce IntOp.andi x v reducesTo_S384x1280_S_d0_1 h_S_) main_v21 main_c_7
  let main_v23 : IVec S_ 1 := andi main_v18 main_v22
  let main_v24 : FVec F S1x384 .f32 := Host.absf main_arg5
  let main_cst_8 : FVec F S_ .f32 := constant S_ .f32 0x7F800000#32
  let main_v25 : FVec F S1x384 .f32 := broadcastInDim S1x384 ![] bcast_S_S1x384 main_cst_8
  let main_v26 : IVec S1x384 1 := cmpf .olt main_v24 main_v25
  let main_c_9 : IVec S_ 1 := constantI S_ 1 1#1
  let main_v27 : IVec S_ 1 := (fun x v => Host.reduce IntOp.andi x v reducesTo_S1x384_S_d0_1 h_S_) main_v26 main_c_9
  let main_v28 : IVec S_ 1 := andi main_v23 main_v27
  main_v28

def fn {F : FTy → Type} [FloatOps F] (main_arg0 : FVec F S10000x10x128 .f32) (main_arg1 : FVec F S10000x10x128 .f32) (main_arg2 : FVec F S1280x1280 .f32) (main_arg3 : FVec F S1280 .f32) (main_arg4 : FVec F S384x1280 .f32) (main_arg5 : FVec F S1x384 .f32) : IVec S_ 1 :=
  let main_v0 : FVec F S10000x10x128 .f32 := Host.absf main_arg0
  let main_cst : FVec F S_ .f32 := constant S_ .f32 0x7F800000#32
  let main_v1 : FVec F S10000x10x128 .f32 := broadcastInDim S10000x10x128 ![] bcast_S_S10000x10x128 main_cst
  let main_v2 : IVec S10000x10x128 1 := cmpf .olt main_v0 main_v1
  let main_c : IVec S_ 1 := constantI S_ 1 1#1
  let main_v3 : IVec S_ 1 := (fun x v => Host.reduce IntOp.andi x v reducesTo_S10000x10x128_S_d0_1_2 h_S_) main_v2 main_c
  let main_v4 : FVec F S10000x10x128 .f32 := Host.absf main_arg1
  let main_cst_0 : FVec F S_ .f32 := constant S_ .f32 0x7F800000#32
  let main_v5 : FVec F S10000x10x128 .f32 := broadcastInDim S10000x10x128 ![] bcast_S_S10000x10x128 main_cst_0
  let main_v6 : IVec S10000x10x128 1 := cmpf .olt main_v4 main_v5
  let main_c_1 : IVec S_ 1 := constantI S_ 1 1#1
  let main_v7 : IVec S_ 1 := (fun x v => Host.reduce IntOp.andi x v reducesTo_S10000x10x128_S_d0_1_2 h_S_) main_v6 main_c_1
  let main_v8 : IVec S_ 1 := andi main_v3 main_v7
  let main_v9 : FVec F S1280x1280 .f32 := Host.absf main_arg2
  let main_cst_2 : FVec F S_ .f32 := constant S_ .f32 0x7F800000#32
  let main_v10 : FVec F S1280x1280 .f32 := broadcastInDim S1280x1280 ![] bcast_S_S1280x1280 main_cst_2
  let main_v11 : IVec S1280x1280 1 := cmpf .olt main_v9 main_v10
  let main_c_3 : IVec S_ 1 := constantI S_ 1 1#1
  let main_v12 : IVec S_ 1 := (fun x v => Host.reduce IntOp.andi x v reducesTo_S1280x1280_S_d0_1 h_S_) main_v11 main_c_3
  let main_v13 : IVec S_ 1 := andi main_v8 main_v12
  let main_v14 : FVec F S1280 .f32 := Host.absf main_arg3
  let main_cst_4 : FVec F S_ .f32 := constant S_ .f32 0x7F800000#32
  let main_v15 : FVec F S1280 .f32 := broadcastInDim S1280 ![] bcast_S_S1280 main_cst_4
  let main_v16 : IVec S1280 1 := cmpf .olt main_v14 main_v15
  fn_part1 (F := F) main_arg4 main_arg5 main_v13 main_v16
-- ==== Kernel.lean ====
abbrev S10000x10x128 : Shape := ⟨3, ![10000, 10, 128]⟩
abbrev S1280x1280 : Shape := ⟨2, ![1280, 1280]⟩
abbrev S1280 : Shape := ⟨1, ![1280]⟩
abbrev S384x1280 : Shape := ⟨2, ![384, 1280]⟩
abbrev S1x384 : Shape := ⟨2, ![1, 384]⟩
abbrev S10x10000x128 : Shape := ⟨3, ![10, 10000, 128]⟩
abbrev S1280x384 : Shape := ⟨2, ![1280, 384]⟩
abbrev S1x1280 : Shape := ⟨2, ![1, 1280]⟩
abbrev S10000x128 : Shape := ⟨2, ![10000, 128]⟩
abbrev S10x1000x128 : Shape := ⟨3, ![10, 1000, 128]⟩
abbrev S1000x128 : Shape := ⟨2, ![1000, 128]⟩
abbrev S1000x1280 : Shape := ⟨2, ![1000, 1280]⟩
abbrev S1280x1664 : Shape := ⟨2, ![1280, 1664]⟩
abbrev S1x1000x128 : Shape := ⟨3, ![1, 1000, 128]⟩
abbrev S1000x1664 : Shape := ⟨2, ![1000, 1664]⟩
abbrev S1000x384 : Shape := ⟨2, ![1000, 384]⟩

abbrev nBuf : Space → Nat
  | .hbm => 12
  | .vmem => 14
  | .smem => 0
  | _ => 0

abbrev bufTy : (tb : Table) → Fin (tcTables nBuf tb) → BufTy
  | .hbm, ⟨0, _⟩ => ⟨S10000x10x128, .f32⟩
  | .hbm, ⟨1, _⟩ => ⟨S10000x10x128, .f32⟩
  | .hbm, ⟨2, _⟩ => ⟨S1280x1280, .f32⟩
  | .hbm, ⟨3, _⟩ => ⟨S1280, .f32⟩
  | .hbm, ⟨4, _⟩ => ⟨S384x1280, .f32⟩
  | .hbm, ⟨5, _⟩ => ⟨S1x384, .f32⟩
  | .hbm, ⟨6, _⟩ => ⟨S10x10000x128, .f32⟩
  | .hbm, ⟨7, _⟩ => ⟨S10x10000x128, .f32⟩
  | .hbm, ⟨8, _⟩ => ⟨S1280x384, .f32⟩
  | .hbm, ⟨9, _⟩ => ⟨S1x1280, .f32⟩
  | .hbm, ⟨10, _⟩ => ⟨S10000x128, .f32⟩
  | .hbm, ⟨11, _⟩ => ⟨S10000x128, .f32⟩
  | .local _ .vmem, ⟨0, _⟩ => ⟨S10x1000x128, .f32⟩
  | .local _ .vmem, ⟨1, _⟩ => ⟨S10x1000x128, .f32⟩
  | .local _ .vmem, ⟨2, _⟩ => ⟨S10x1000x128, .f32⟩
  | .local _ .vmem, ⟨3, _⟩ => ⟨S10x1000x128, .f32⟩
  | .local _ .vmem, ⟨4, _⟩ => ⟨S1280x1280, .f32⟩
  | .local _ .vmem, ⟨5, _⟩ => ⟨S1x1280, .f32⟩
  | .local _ .vmem, ⟨6, _⟩ => ⟨S1280x384, .f32⟩
  | .local _ .vmem, ⟨7, _⟩ => ⟨S1x384, .f32⟩
  | .local _ .vmem, ⟨8, _⟩ => ⟨S1000x128, .f32⟩
  | .local _ .vmem, ⟨9, _⟩ => ⟨S1000x128, .f32⟩
  | .local _ .vmem, ⟨10, _⟩ => ⟨S1000x128, .f32⟩
  | .local _ .vmem, ⟨11, _⟩ => ⟨S1000x128, .f32⟩
  | .local _ .vmem, ⟨12, _⟩ => ⟨S1000x1280, .bf16⟩
  | .local _ .vmem, ⟨13, _⟩ => ⟨S1280x1664, .bf16⟩
  | _, _ => ⟨S10000x10x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_v0_0 : Ref sig .tc := ⟨.hbm, 10, rfl⟩
abbrev main_v0_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![10], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10x1000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10x1000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1280x1280 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1280 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1280x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  transposes_S10000x10x128_S10x10000x128_1_0_2 : S10000x10x128.Transposes [1, 0, 2] S10x10000x128
  transposes_S384x1280_S1280x384_1_0 : S384x1280.Transposes [1, 0] S1280x384
  shapeCasts_S1280_S1x1280 : S1280.ShapeCasts S1x1280
  inb_S1280x1280_S1280x1280_0_0 : ∀ a, (![0, 0] : Fin 2 → Nat) a + S1280x1280.size a ≤ S1280x1280.size a
  h_S1280x1280 : 0 < S1280x1280.numel
  bitsLt_bf16_f32 : FTy.bits .bf16 < FTy.bits .f32
  inb_S1280x1664_S1280x1280_0_0 : ∀ a, (![0, 0] : Fin 2 → Nat) a + S1280x1280.size a ≤ S1280x1664.size a
  shapeCasts_S1280x1280_S1280x1280 : S1280x1280.ShapeCasts S1280x1280
  packedbf16_S1280x1664_S1280x1280_0_0 : (Rect.unit (s := S1280x1664) ![0, 0] S1280x1280.size inb_S1280x1664_S1280x1280_0_0).PackedRows (EltTy.packing .bf16)
  inb_S1280x384_S1280x384_0_0 : ∀ a, (![0, 0] : Fin 2 → Nat) a + S1280x384.size a ≤ S1280x384.size a
  h_S1280x384 : 0 < S1280x384.numel
  shapeCasts_S1280x384_S1280x384 : S1280x384.ShapeCasts S1280x384
  inb_S1280x1664_S1280x384_0_1280 : ∀ a, (![0, 1280] : Fin 2 → Nat) a + S1280x384.size a ≤ S1280x1664.size a
  packedbf16_S1280x1664_S1280x384_0_1280 : (Rect.unit (s := S1280x1664) ![0, 1280] S1280x384.size inb_S1280x1664_S1280x384_0_1280).PackedRows (EltTy.packing .bf16)
  inb_S10x1000x128_S1x1000x128_0_0_0 : ∀ a, (![0, 0, 0] : Fin 3 → Nat) a + S1x1000x128.size a ≤ S10x1000x128.size a
  h_S1x1000x128 : 0 < S1x1000x128.numel
  shapeCasts_S1x1000x128_S1000x128 : S1x1000x128.ShapeCasts S1000x128
  inb_S1000x1280_S1000x128_0_0 : ∀ a, (![0, 0] : Fin 2 → Nat) a + S1000x128.size a ≤ S1000x1280.size a
  h_S1000x128 : 0 < S1000x128.numel
  shapeCasts_S1000x128_S1000x128 : S1000x128.ShapeCasts S1000x128
  packedbf16_S1000x1280_S1000x128_0_0 : (Rect.unit (s := S1000x1280) ![0, 0] S1000x128.size inb_S1000x1280_S1000x128_0_0).PackedRows (EltTy.packing .bf16)
  inb_S10x1000x128_S1x1000x128_1_0_0 : ∀ a, (![1, 0, 0] : Fin 3 → Nat) a + S1x1000x128.size a ≤ S10x1000x128.size a
  inb_S1000x1280_S1000x128_0_128 : ∀ a, (![0, 128] : Fin 2 → Nat) a + S1000x128.size a ≤ S1000x1280.size a
  packedbf16_S1000x1280_S1000x128_0_128 : (Rect.unit (s := S1000x1280) ![0, 128] S1000x128.size inb_S1000x1280_S1000x128_0_128).PackedRows (EltTy.packing .bf16)
  inb_S10x1000x128_S1x1000x128_2_0_0 : ∀ a, (![2, 0, 0] : Fin 3 → Nat) a + S1x1000x128.size a ≤ S10x1000x128.size a
  inb_S1000x1280_S1000x128_0_256 : ∀ a, (![0, 256] : Fin 2 → Nat) a + S1000x128.size a ≤ S1000x1280.size a
  packedbf16_S1000x1280_S1000x128_0_256 : (Rect.unit (s := S1000x1280) ![0, 256] S1000x128.size inb_S1000x1280_S1000x128_0_256).PackedRows (EltTy.packing .bf16)
  inb_S10x1000x128_S1x1000x128_3_0_0 : ∀ a, (![3, 0, 0] : Fin 3 → Nat) a + S1x1000x128.size a ≤ S10x1000x128.size a
  inb_S1000x1280_S1000x128_0_384 : ∀ a, (![0, 384] : Fin 2 → Nat) a + S1000x128.size a ≤ S1000x1280.size a
  packedbf16_S1000x1280_S1000x128_0_384 : (Rect.unit (s := S1000x1280) ![0, 384] S1000x128.size inb_S1000x1280_S1000x128_0_384).PackedRows (EltTy.packing .bf16)
  inb_S10x1000x128_S1x1000x128_4_0_0 : ∀ a, (![4, 0, 0] : Fin 3 → Nat) a + S1x1000x128.size a ≤ S10x1000x128.size a
  inb_S1000x1280_S1000x128_0_512 : ∀ a, (![0, 512] : Fin 2 → Nat) a + S1000x128.size a ≤ S1000x1280.size a
  packedbf16_S1000x1280_S1000x128_0_512 : (Rect.unit (s := S1000x1280) ![0, 512] S1000x128.size inb_S1000x1280_S1000x128_0_512).PackedRows (EltTy.packing .bf16)
  inb_S10x1000x128_S1x1000x128_5_0_0 : ∀ a, (![5, 0, 0] : Fin 3 → Nat) a + S1x1000x128.size a ≤ S10x1000x128.size a
  inb_S1000x1280_S1000x128_0_640 : ∀ a, (![0, 640] : Fin 2 → Nat) a + S1000x128.size a ≤ S1000x1280.size a
  packedbf16_S1000x1280_S1000x128_0_640 : (Rect.unit (s := S1000x1280) ![0, 640] S1000x128.size inb_S1000x1280_S1000x128_0_640).PackedRows (EltTy.packing .bf16)
  inb_S10x1000x128_S1x1000x128_6_0_0 : ∀ a, (![6, 0, 0] : Fin 3 → Nat) a + S1x1000x128.size a ≤ S10x1000x128.size a
  inb_S1000x1280_S1000x128_0_768 : ∀ a, (![0, 768] : Fin 2 → Nat) a + S1000x128.size a ≤ S1000x1280.size a
  packedbf16_S1000x1280_S1000x128_0_768 : (Rect.unit (s := S1000x1280) ![0, 768] S1000x128.size inb_S1000x1280_S1000x128_0_768).PackedRows (EltTy.packing .bf16)
  inb_S10x1000x128_S1x1000x128_7_0_0 : ∀ a, (![7, 0, 0] : Fin 3 → Nat) a + S1x1000x128.size a ≤ S10x1000x128.size a
  inb_S1000x1280_S1000x128_0_896 : ∀ a, (![0, 896] : Fin 2 → Nat) a + S1000x128.size a ≤ S1000x1280.size a
  packedbf16_S1000x1280_S1000x128_0_896 : (Rect.unit (s := S1000x1280) ![0, 896] S1000x128.size inb_S1000x1280_S1000x128_0_896).PackedRows (EltTy.packing .bf16)
  inb_S10x1000x128_S1x1000x128_8_0_0 : ∀ a, (![8, 0, 0] : Fin 3 → Nat) a + S1x1000x128.size a ≤ S10x1000x128.size a
  inb_S1000x1280_S1000x128_0_1024 : ∀ a, (![0, 1024] : Fin 2 → Nat) a + S1000x128.size a ≤ S1000x1280.size a
  packedbf16_S1000x1280_S1000x128_0_1024 : (Rect.unit (s := S1000x1280) ![0, 1024] S1000x128.size inb_S1000x1280_S1000x128_0_1024).PackedRows (EltTy.packing .bf16)
  inb_S10x1000x128_S1x1000x128_9_0_0 : ∀ a, (![9, 0, 0] : Fin 3 → Nat) a + S1x1000x128.size a ≤ S10x1000x128.size a
  inb_S1000x1280_S1000x128_0_1152 : ∀ a, (![0, 1152] : Fin 2 → Nat) a + S1000x128.size a ≤ S1000x1280.size a
  packedbf16_S1000x1280_S1000x128_0_1152 : (Rect.unit (s := S1000x1280) ![0, 1152] S1000x128.size inb_S1000x1280_S1000x128_0_1152).PackedRows (EltTy.packing .bf16)
  inb_S1000x1280_S1000x1280_0_0 : ∀ a, (![0, 0] : Fin 2 → Nat) a + S1000x1280.size a ≤ S1000x1280.size a
  h_S1000x1280 : 0 < S1000x1280.numel
  inb_S1280x1664_S1280x1664_0_0 : ∀ a, (![0, 0] : Fin 2 → Nat) a + S1280x1664.size a ≤ S1280x1664.size a
  h_S1280x1664 : 0 < S1280x1664.numel
  slices_S1000x1664_o0_0_S1000x1280 : S1000x1664.Slices ![0, 0] S1000x1280
  inb_S1x1280_S1x1280_0_0 : ∀ a, (![0, 0] : Fin 2 → Nat) a + S1x1280.size a ≤ S1x1280.size a
  h_S1x1280 : 0 < S1x1280.numel
  shapeCasts_S1x1280_S1x1280 : S1x1280.ShapeCasts S1x1280
  broadcasts_S1x1280_S1000x1280 : S1x1280.Broadcasts S1000x1280
  slices_S1000x1664_o0_1280_S1000x384 : S1000x1664.Slices ![0, 1280] S1000x384
  slices_S1000x1280_o0_0_S1000x128 : S1000x1280.Slices ![0, 0] S1000x128
  slices_S1000x1280_o0_128_S1000x128 : S1000x1280.Slices ![0, 128] S1000x128
  slices_S1000x1280_o0_256_S1000x128 : S1000x1280.Slices ![0, 256] S1000x128
  slices_S1000x1280_o0_384_S1000x128 : S1000x1280.Slices ![0, 384] S1000x128
  slices_S1000x1280_o0_512_S1000x128 : S1000x1280.Slices ![0, 512] S1000x128
  slices_S1000x1280_o0_640_S1000x128 : S1000x1280.Slices ![0, 640] S1000x128
  slices_S1000x1280_o0_768_S1000x128 : S1000x1280.Slices ![0, 768] S1000x128
  slices_S1000x1280_o0_896_S1000x128 : S1000x1280.Slices ![0, 896] S1000x128
  slices_S1000x1280_o0_1024_S1000x128 : S1000x1280.Slices ![0, 1024] S1000x128
  slices_S1000x1280_o0_1152_S1000x128 : S1000x1280.Slices ![0, 1152] S1000x128
  inb_S1x384_S1x384_0_0 : ∀ a, (![0, 0] : Fin 2 → Nat) a + S1x384.size a ≤ S1x384.size a
  h_S1x384 : 0 < S1x384.numel
  broadcasts_S1x384_S1000x384 : S1x384.Broadcasts S1000x384
  slices_S1000x384_o0_0_S1000x128 : S1000x384.Slices ![0, 0] S1000x128
  slices_S1000x384_o0_128_S1000x128 : S1000x384.Slices ![0, 128] S1000x128
  slices_S1000x384_o0_256_S1000x128 : S1000x384.Slices ![0, 256] S1000x128
  inb_S1000x128_S1000x128_0_0 : ∀ a, (![0, 0] : Fin 2 → Nat) a + S1000x128.size a ≤ S1000x128.size a
  dot_S1000x1280_S1280x1664_S1000x1664_1_0_0_1_n_n_wf : DotDims.WF S1000x1280 S1280x1664 S1000x1664 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10x1000x128.size a ≤ S10x10000x128.size a
  hwx0_0 : ∀ i : grid0.Coords, EltTy.bits .f32 = 32 ∨ (Rect.block (s := S10x10000x128) S10x1000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10x1000x128.size a ≤ S10x10000x128.size a
  hwx0_1 : ∀ i : grid0.Coords, EltTy.bits .f32 = 32 ∨ (Rect.block (s := S10x10000x128) S10x1000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1280x1280.size a ≤ S1280x1280.size a
  hwx0_2 : ∀ i : grid0.Coords, EltTy.bits .f32 = 32 ∨ (Rect.block (s := S1280x1280) S1280x1280.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1280.size a ≤ S1x1280.size a
  hwx0_3 : ∀ i : grid0.Coords, EltTy.bits .f32 = 32 ∨ (Rect.block (s := S1x1280) S1x1280.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1280x384.size a ≤ S1280x384.size a
  hwx0_4 : ∀ i : grid0.Coords, EltTy.bits .f32 = 32 ∨ (Rect.block (s := S1280x384) S1280x384.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x384.size a ≤ S1x384.size a
  hwx0_5 : ∀ i : grid0.Coords, EltTy.bits .f32 = 32 ∨ (Rect.block (s := S1x384) S1x384.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1000x128.size a ≤ S10000x128.size a
  hwx0_6 : ∀ i : grid0.Coords, EltTy.bits .f32 = 32 ∨ (Rect.block (s := S10000x128) S1000x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1000x128.size a ≤ S10000x128.size a
  hwx0_7 : ∀ i : grid0.Coords, EltTy.bits .f32 = 32 ∨ (Rect.block (s := S10000x128) S1000x128.size (cc0_transform_7 i) (hinb0_7 i)).WholeWords (EltTy.packing .f32)

variable [Facts₀]

def dot_S1000x1280_S1280x1664_S1000x1664_1_0_0_1_n_n : DotDims S1000x1280 S1280x1664 S1000x1664 where
  lhsContracting := [1]
  rhsContracting := [0]
  lhsNonContracting := [0]
  rhsNonContracting := [1]
  lhsBatch := []
  rhsBatch := []
  wf := dot_S1000x1280_S1280x1664_S1000x1664_1_0_0_1_n_n_wf

abbrev win0_0 : Pipeline.Window sig grid0 :=
  Pipeline.Window.ofSpec (Memref.whole main_call0_v0) S10x1000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v1) S10x1000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1280x1280.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v3) S1x1280.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v2) S1280x384.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S1x384.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v0_0) S1000x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v0_1) S1000x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S10000x10x128 : Shape := ⟨3, ![10000, 10, 128]⟩
abbrev S1280x1280 : Shape := ⟨2, ![1280, 1280]⟩
abbrev S1280 : Shape := ⟨1, ![1280]⟩
abbrev S384x1280 : Shape := ⟨2, ![384, 1280]⟩
abbrev S1x384 : Shape := ⟨2, ![1, 384]⟩
abbrev S10000x1280 : Shape := ⟨2, ![10000, 1280]⟩
abbrev S1x1280 : Shape := ⟨2, ![1, 1280]⟩
abbrev S_ : Shape := ⟨0, ![]⟩
abbrev S10000x128 : Shape := ⟨2, ![10000, 128]⟩
abbrev S1280x384 : Shape := ⟨2, ![1280, 384]⟩
abbrev S10000x384 : Shape := ⟨2, ![10000, 384]⟩

abbrev nBuf : Space → Nat
  | .hbm => 51
  | .vmem => 0
  | .smem => 0
  | _ => 0

abbrev bufTy : (tb : Table) → Fin (tcTables nBuf tb) → BufTy
  | .hbm, ⟨0, _⟩ => ⟨S10000x10x128, .f32⟩
  | .hbm, ⟨1, _⟩ => ⟨S10000x10x128, .f32⟩
  | .hbm, ⟨2, _⟩ => ⟨S1280x1280, .f32⟩
  | .hbm, ⟨3, _⟩ => ⟨S1280, .f32⟩
  | .hbm, ⟨4, _⟩ => ⟨S384x1280, .f32⟩
  | .hbm, ⟨5, _⟩ => ⟨S1x384, .f32⟩
  | .hbm, ⟨6, _⟩ => ⟨S10000x1280, .f32⟩
  | .hbm, ⟨7, _⟩ => ⟨S10000x1280, .f32⟩
  | .hbm, ⟨8, _⟩ => ⟨S1x1280, .f32⟩
  | .hbm, ⟨9, _⟩ => ⟨S10000x1280, .f32⟩
  | .hbm, ⟨10, _⟩ => ⟨S10000x1280, .f32⟩
  | .hbm, ⟨11, _⟩ => ⟨S10000x1280, .f32⟩
  | .hbm, ⟨12, _⟩ => ⟨S10000x1280, .f32⟩
  | .hbm, ⟨13, _⟩ => ⟨S_, .f32⟩
  | .hbm, ⟨14, _⟩ => ⟨S10000x1280, .f32⟩
  | .hbm, ⟨15, _⟩ => ⟨S10000x1280, .f32⟩
  | .hbm, ⟨16, _⟩ => ⟨S_, .f32⟩
  | .hbm, ⟨17, _⟩ => ⟨S10000x1280, .f32⟩
  | .hbm, ⟨18, _⟩ => ⟨S10000x1280, .f32⟩
  | .hbm, ⟨19, _⟩ => ⟨S10000x10x128, .f32⟩
  | .hbm, ⟨20, _⟩ => ⟨S10000x10x128, .f32⟩
  | .hbm, ⟨21, _⟩ => ⟨S_, .f32⟩
  | .hbm, ⟨22, _⟩ => ⟨S10000x128, .f32⟩
  | .hbm, ⟨23, _⟩ => ⟨S1280x384, .f32⟩
  | .hbm, ⟨24, _⟩ => ⟨S10000x384, .f32⟩
  | .hbm, ⟨25, _⟩ => ⟨S10000x384, .f32⟩
  | .hbm, ⟨26, _⟩ => ⟨S10000x384, .f32⟩
  | .hbm, ⟨27, _⟩ => ⟨S10000x128, .f32⟩
  | .hbm, ⟨28, _⟩ => ⟨S10000x128, .f32⟩
  | .hbm, ⟨29, _⟩ => ⟨S10000x128, .f32⟩
  | .hbm, ⟨30, _⟩ => ⟨S10000x128, .f32⟩
  | .hbm, ⟨31, _⟩ => ⟨S10000x128, .f32⟩
  | .hbm, ⟨32, _⟩ => ⟨S_, .f32⟩
  | .hbm, ⟨33, _⟩ => ⟨S10000x128, .f32⟩
  | .hbm, ⟨34, _⟩ => ⟨S10000x128, .f32⟩
  | .hbm, ⟨35, _⟩ => ⟨S_, .f32⟩
  | .hbm, ⟨36, _⟩ => ⟨S10000x128, .f32⟩
  | .hbm, ⟨37, _⟩ => ⟨S10000x128, .f32⟩
  | .hbm, ⟨38, _⟩ => ⟨S10000x128, .f32⟩
  | .hbm, ⟨39, _⟩ => ⟨S10000x128, .f32⟩
  | .hbm, ⟨40, _⟩ => ⟨S_, .f32⟩
  | .hbm, ⟨41, _⟩ => ⟨S10000x128, .f32⟩
  | .hbm, ⟨42, _⟩ => ⟨S10000x128, .f32⟩
  | .hbm, ⟨43, _⟩ => ⟨S_, .f32⟩
  | .hbm, ⟨44, _⟩ => ⟨S10000x128, .f32⟩
  | .hbm, ⟨45, _⟩ => ⟨S10000x128, .f32⟩
  | .hbm, ⟨46, _⟩ => ⟨S10000x128, .f32⟩
  | .hbm, ⟨47, _⟩ => ⟨S10000x128, .f32⟩
  | .hbm, ⟨48, _⟩ => ⟨S10000x128, .f32⟩
  | .hbm, ⟨49, _⟩ => ⟨S10000x128, .f32⟩
  | .hbm, ⟨50, _⟩ => ⟨S10000x128, .f32⟩
  | _, _ => ⟨S10000x10x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_2 : Ref sig .tc := ⟨.hbm, 32, rfl⟩
abbrev main_v23 : Ref sig .tc := ⟨.hbm, 33, rfl⟩
abbrev main_v24 : Ref sig .tc := ⟨.hbm, 34, rfl⟩
abbrev main_cst_3 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_4 : Ref sig .tc := ⟨.hbm, 40, rfl⟩
abbrev main_v29 : Ref sig .tc := ⟨.hbm, 41, rfl⟩
abbrev main_v30 : Ref sig .tc := ⟨.hbm, 42, rfl⟩
abbrev main_cst_5 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩

abbrev nD : Nat := 1
abbrev τ : Topo := Topo.v7x

variable {F : FTy → Type} [FloatOps F]

class Facts₀ : Prop where
  shapeCasts_S10000x10x128_S10000x1280 : S10000x10x128.ShapeCasts S10000x1280
  bcast_S1280_S1x1280_1 : S1280.BroadcastsInDim S1x1280 (![1] : Fin 1 → Fin S1x1280.rank)
  bcast_S1x1280_S10000x1280_0_1 : S1x1280.BroadcastsInDim S10000x1280 (![0, 1] : Fin 2 → Fin S10000x1280.rank)
  bcast_S_S10000x1280 : S_.BroadcastsInDim S10000x1280 (![] : Fin 0 → Fin S10000x1280.rank)
  shapeCasts_S10000x1280_S10000x10x128 : S10000x1280.ShapeCasts S10000x10x128
  reducesTo_S10000x10x128_S10000x128_d1 : S10000x10x128.ReducesTo [1] S10000x128
  h_S_ : 0 < S_.numel
  transposes_S384x1280_S1280x384_1_0 : S384x1280.Transposes [1, 0] S1280x384
  bcast_S1x384_S10000x384_0_1 : S1x384.BroadcastsInDim S10000x384 (![0, 1] : Fin 2 → Fin S10000x384.rank)
  slices_S10000x384_S10000x128_0_0 : S10000x384.Slices ![0, 0] S10000x128
  slices_S10000x384_S10000x128_0_128 : S10000x384.Slices ![0, 128] S10000x128
  slices_S10000x384_S10000x128_0_256 : S10000x384.Slices ![0, 256] S10000x128
  bcast_S_S10000x128 : S_.BroadcastsInDim S10000x128 (![] : Fin 0 → Fin S10000x128.rank)
  dot_S10000x1280_S1280x1280_S10000x1280_1_0_0_1_n_n_wf : DotDims.WF S10000x1280 S1280x1280 S10000x1280 [1] [0] [0] [1] [] []
  dot_S10000x1280_S1280x384_S10000x384_1_0_0_1_n_n_wf : DotDims.WF S10000x1280 S1280x384 S10000x384 [1] [0] [0] [1] [] []

variable [Facts₀]

def dot_S10000x1280_S1280x1280_S10000x1280_1_0_0_1_n_n : DotDims S10000x1280 S1280x1280 S10000x1280 where
  lhsContracting := [1]
  rhsContracting := [0]
  lhsNonContracting := [0]
  rhsNonContracting := [1]
  lhsBatch := []
  rhsBatch := []
  wf := dot_S10000x1280_S1280x1280_S10000x1280_1_0_0_1_n_n_wf
def dot_S10000x1280_S1280x384_S10000x384_1_0_0_1_n_n : DotDims S10000x1280 S1280x384 S10000x384 where
  lhsContracting := [1]
  rhsContracting := [0]
  lhsNonContracting := [0]
  rhsNonContracting := [1]
  lhsBatch := []
  rhsBatch := []
  wf := dot_S10000x1280_S1280x384_S10000x384_1_0_0_1_n_n_wf

class Facts : Prop extends Facts₀ where

variable [Facts]
-- ==== Proof.Spec.lean ====
/-
  The tree-LSTM cell as one function of the argument arrays, index by index, on the extended reals.

  A node has ten children; child k contributes a length-128 hidden row h[k] and a length-128 memory row c[k]. The ten
  hidden rows laid end to end form one row of length 1280, whose entry q belongs to child q / 128 at lane q % 128.
  From that row,
    forget gate, entry q     : f q = logistic (∑ₖ row k · Wf k q + bf q)
    reduced memory, lane j   : ∑ over the ten children k of f (128 k + j) · c k j
    the three gates, entry o : iou o = ∑ₖ row k · Wi k o + bi o         (o < 384: input, output, update thirds)
    new memory, lane j       : logistic (iou j) · tanh (iou (256 + j)) + reduced memory j
    new hidden, lane j       : logistic (iou (128 + j)) · tanh (new memory j).
  The weights enter as functions of two positions so that a matrix stored transposed, or stored as a band of a wider
  matrix, is the same cell. Sums are finite sums in the extended reals, where addition is commutative and associative;
  nothing here needs the entries to be finite.
-/
import Idealize.ShloMosaic.PureOps.Ideal
import Idealize.ShloMosaic.Lib.ValueIdx

noncomputable section

namespace Cert.Spec

open Idealize.ShloMosaic Idealize.ShloMosaic.ValueIdx
open scoped BigOperators

/-- Entry of the flattened row that holds lane j of child k. -/
abbrev col (k : Fin 10) (j : Fin 128) : Fin 1280 := ⟨k.val * 128 + j.val, by have := k.isLt; have := j.isLt; omega⟩
/-- The child an entry of the flattened row belongs to. -/
abbrev kid (q : Fin 1280) : Fin 10 := ⟨q.val / 128, by have := q.isLt; omega⟩
/-- The lane of an entry of the flattened row inside its child. -/
abbrev lane (q : Fin 1280) : Fin 128 := ⟨q.val % 128, by have := q.isLt; omega⟩
/-- The input third of the 384 gate entries. -/
abbrev gi (j : Fin 128) : Fin 384 := ⟨j.val, by have := j.isLt; omega⟩
/-- The output third. -/
abbrev go (j : Fin 128) : Fin 384 := ⟨128 + j.val, by have := j.isLt; omega⟩
/-- The update third. -/
abbrev gu (j : Fin 128) : Fin 384 := ⟨256 + j.val, by have := j.isLt; omega⟩

theorem kid_col (k : Fin 10) (j : Fin 128) : kid (col k j) = k :=
  Fin.ext (by have := j.isLt; show (k.val * 128 + j.val) / 128 = k.val; omega)
theorem lane_col (k : Fin 10) (j : Fin 128) : lane (col k j) = j :=
  Fin.ext (by have := j.isLt; show (k.val * 128 + j.val) % 128 = j.val; omega)

section Cell

variable (wf : Fin 1280 → Fin 1280 → EReal) (bf : Fin 1280 → EReal) (wi : Fin 1280 → Fin 384 → EReal) (bi : Fin 384 → EReal)

/-- The forget gates' pre-activation at entry q of the flattened row. -/
def fpre (row : Fin 1280 → EReal) (q : Fin 1280) : EReal := (∑ k : Fin 1280, row k * wf k q) + bf q

/-- The three gates' pre-activation at entry o. -/
def iou (row : Fin 1280 → EReal) (o : Fin 384) : EReal := (∑ k : Fin 1280, row k * wi k o) + bi o

/-- The children's memories weighted by their forget gates and summed, at lane j. -/
def cred (row : Fin 1280 → EReal) (mem : Fin 10 → Fin 128 → EReal) (j : Fin 128) : EReal :=
  ∑ k : Fin 10, Ideal.logistic (fpre wf bf row (col k j)) * mem k j

/-- The new memory at lane j. -/
def cCell (row : Fin 1280 → EReal) (mem : Fin 10 → Fin 128 → EReal) (j : Fin 128) : EReal :=
  Ideal.logistic (iou wi bi row (gi j)) * Ideal.tanh (iou wi bi row (gu j)) + cred wf bf row mem j

/-- The new hidden state at lane j. -/
def hCell (row : Fin 1280 → EReal) (mem : Fin 10 → Fin 128 → EReal) (j : Fin 128) : EReal :=
  Ideal.logistic (iou wi bi row (go j)) * Ideal.tanh (cCell wf bf wi bi row mem j)

end Cell

/-! ## The two result arrays of the whole batch -/

abbrev SMail : Shape := ⟨3, ![10000, 10, 128]⟩
abbrev SWf : Shape := ⟨2, ![1280, 1280]⟩
abbrev SBf : Shape := ⟨1, ![1280]⟩
abbrev SWi : Shape := ⟨2, ![384, 1280]⟩
abbrev SBi : Shape := ⟨2, ![1, 384]⟩
abbrev SOut : Shape := ⟨2, ![10000, 128]⟩

section Arrays

variable (h c : FVec Ideal SMail .f32) (Wf : FVec Ideal SWf .f32) (Bf : FVec Ideal SBf .f32) (Wi : FVec Ideal SWi .f32)
  (Bi : FVec Ideal SBi .f32)

/-- Node n's flattened hidden row. -/
abbrev rowOf (n : Fin 10000) : Fin 1280 → EReal := fun q => h (ix3 n (kid q) (lane q))
/-- Node n's children's memories. -/
abbrev memOf (n : Fin 10000) : Fin 10 → Fin 128 → EReal := fun k j => c (ix3 n k j)

/-- New memory of node n at lane j: the forget weights as stored, the gate weights stored transposed (output entry
    first), the gate bias a one-row matrix. -/
def cAt (n : Fin 10000) (j : Fin 128) : EReal :=
  cCell (fun k q => Wf (ix2 k q)) (fun q => Bf (ix1 q)) (fun k o => Wi (ix2 o k)) (fun o => Bi (ix2 (0 : Fin 1) o))
    (rowOf h n) (memOf c n) j

/-- New hidden state of node n at lane j. -/
def hAt (n : Fin 10000) (j : Fin 128) : EReal :=
  hCell (fun k q => Wf (ix2 k q)) (fun q => Bf (ix1 q)) (fun k o => Wi (ix2 o k)) (fun o => Bi (ix2 (0 : Fin 1) o))
    (rowOf h n) (memOf c n) j

/-- The new memories, as an array. -/
def C : FVec Ideal SOut .f32 := fun i => cAt h c Wf Bf Wi Bi ⟨(i 0).val, idx2_lt0 i⟩ ⟨(i 1).val, idx2_lt1 i⟩

/-- The new hidden states, as an array. -/
def H : FVec Ideal SOut .f32 := fun i => hAt h c Wf Bf Wi Bi ⟨(i 0).val, idx2_lt0 i⟩ ⟨(i 1).val, idx2_lt1 i⟩

theorem C_apply (n : Fin 10000) (j : Fin 128) : C h c Wf Bf Wi Bi (ix2 n j) = cAt h c Wf Bf Wi Bi n j := rfl
theorem H_apply (n : Fin 10000) (j : Fin 128) : H h c Wf Bf Wi Bi (ix2 n j) = hAt h c Wf Bf Wi Bi n j := rfl

end Arrays

/-! ## Ten terms added left to right are their sum -/

/-- Ten terms g 0, …, g 9 added left to right are the sum over the ten positions. -/
theorem chain10 {M : Type*} [AddCommMonoid M] (g : Fin 10 → M) :
    g 0 + g 1 + g 2 + g 3 + g 4 + g 5 + g 6 + g 7 + g 8 + g 9 = ∑ k : Fin 10, g k := by
  simp only [Fin.sum_univ_castSucc, Fin.sum_univ_zero, zero_add]
  rfl

end Cert.Spec

end
-- ==== Proof.RefSpec.lean ====
/-
  The reference program's two results are the specification's two arrays.

  The reference flattens each node's ten hidden rows of length 128 into one row of length 1280 (entry q of the flat row is
  lane q % 128 of child q / 128), multiplies the flat rows by the forget weights and adds the forget bias, applies
  1 / (1 + exp (-x)) to every entry, folds the result back to ten rows of 128 (entry (k, j) is the flat entry 128 k + j),
  multiplies by the children's memories and adds the ten children up, starting from zero. The three gates come from the
  same flat rows times the transposed gate weights plus the one-row gate bias, cut into thirds at columns 0, 128 and 256.
  On the extended reals 1 / (1 + exp (-x)) is the logistic function by definition, the word 0x3F800000 is the number 1
  and the zero word is 0, so, read at a node n and a lane j, every stage is the corresponding piece of the specification:
    the flat row at (n, q)                    is  h (n, q / 128, q % 128)
    the forget pre-activation at (n, q)       is  fpre at q
    the forget gate at (n, q)                 is  logistic (fpre at q)
    the reduced memory at (n, j)              is  cred at j
    the gates' pre-activation at (n, o)       is  iou at o
    the input, output and update gates (n, j) are logistic (iou j), logistic (iou (128 + j)), tanh (iou (256 + j))
    the new memory at (n, j)                  is  cAt n j
    the new hidden state at (n, j)            is  hAt n j.
  Each step reads one operation at an index, identifies the index the operation reads its operand at (a division with
  remainder for the two reshapes, a swap for the transpose, an offset for the three slices) and uses the step before.
-/
import proofs.«159745_g52183852646691_cont_8to1_c_618_28_alg».proof.Proof.Gen.ReferenceIdeal.Read
import proofs.«159745_g52183852646691_cont_8to1_c_618_28_alg».proof.Proof.Spec

noncomputable section

namespace Cert.ReferenceIdeal.RefSpec

open Cert.ReferenceIdeal Cert.ReferenceIdeal.Read Idealize.ShloMosaic Idealize.ShloMosaic.ValueIdx
open scoped BigOperators

/-! ## The literal 1 and the spelt-out logistic function -/

/-- The single-precision word 0x3F800000 denotes the number 1. -/
theorem one_f32 : Ideal.ofBits .f32 0x3F800000#32 = 1 := by
  simp [Ideal.ofBits, Ideal.ieee, -EReal.coe_mul]; norm_num

/-- 1 / (1 + exp (-x)), with both ones given as the word 0x3F800000, is the logistic function of x. -/
theorem logistic_spelt (x : Ideal .f32) :
    FloatOps.hostDivf (FloatOps.ofBits (F := Ideal) .f32 0x3F800000#32)
      (FloatOps.addf (FloatOps.ofBits (F := Ideal) .f32 0x3F800000#32) (FloatOps.hostUnary .exp (FloatOps.hostNegf x)))
      = Ideal.logistic x := by
  rw [Ideal.ofBits_def, one_f32]
  rfl

section Stages

variable (x0 x1 : (⟨S10000x10x128, .f32⟩ : BufTy).Contents (Elt Ideal)) (x2 : (⟨S1280x1280, .f32⟩ : BufTy).Contents (Elt Ideal))
  (x3 : (⟨S1280, .f32⟩ : BufTy).Contents (Elt Ideal)) (x4 : (⟨S384x1280, .f32⟩ : BufTy).Contents (Elt Ideal))
  (x5 : (⟨S1x384, .f32⟩ : BufTy).Contents (Elt Ideal))

/-! ## The flattened hidden rows -/

/-- Entry (n, q) of the flattened hidden states is child q / 128 at lane q % 128 of node n: the row-major position
    1280 n + q splits as (n * 10 + q / 128) * 128 + q % 128. -/
theorem row_at (n : Fin 10000) (q : Fin 1280) :
    val_main_v0 (F := Ideal) x0 (ix2 n q) = x0 (ix3 n (Spec.kid q) (Spec.lane q)) := by
  rw [val_main_v0_apply]
  refine congrArg x0 (funext fun a => Fin.ext ?_)
  have hn := n.isLt; have hq := q.isLt
  match a with
  | ⟨0, _⟩ => show (n.val * 1280 + q.val) / 1280 = n.val; omega
  | ⟨1, _⟩ => show (n.val * 1280 + q.val) / 128 % 10 = q.val / 128; omega
  | ⟨2, _⟩ => show (n.val * 1280 + q.val) % 128 = q.val % 128; omega

/-! ## The forget gates and the reduced memory -/

/-- Term k of the forget product at (n, q) reads the flat row at (n, k) … -/
theorem lidx1 (n : Fin 10000) (q k : Fin 1280) : lidx_main_v1 (ix2 n q) k = ix2 n k :=
  funext fun a => by match a with | ⟨0, _⟩ => rfl | ⟨1, _⟩ => rfl
/-- … and the forget weights at (k, q). -/
theorem ridx1 (n : Fin 10000) (q k : Fin 1280) : ridx_main_v1 (ix2 n q) k = ix2 k q :=
  funext fun a => by match a with | ⟨0, _⟩ => rfl | ⟨1, _⟩ => rfl

/-- The forget pre-activation at (n, q): the flat row of node n times column q of the forget weights, plus the bias at q. -/
theorem fpre_at (n : Fin 10000) (q : Fin 1280) :
    val_main_v4 (F := Ideal) x0 x2 x3 (ix2 n q)
      = Spec.fpre (fun k q => x2 (ix2 k q)) (fun q => x3 (ix1 q)) (Spec.rowOf x0 n) q := by
  rw [val_main_v4_apply, val_main_v1_apply, val_main_v3_apply, val_main_v2_apply]
  unfold Spec.fpre
  refine congrArg₂ (· + ·) (Finset.sum_congr rfl fun k _ => ?_) (congrArg x3 (funext fun a => by match a with | ⟨0, _⟩ => rfl))
  rw [lidx1, ridx1, row_at]

/-- The forget gate at (n, q) is the logistic function of the pre-activation. -/
theorem f_at (n : Fin 10000) (q : Fin 1280) :
    val_main_v10 (F := Ideal) x0 x2 x3 (ix2 n q)
      = Ideal.logistic (Spec.fpre (fun k q => x2 (ix2 k q)) (fun q => x3 (ix1 q)) (Spec.rowOf x0 n) q) := by
  rw [val_main_v10_apply, val_main_v9_apply, val_main_cst_0_apply, val_main_v8_apply, val_main_v7_apply,
    val_main_cst_apply, val_main_v6_apply, val_main_v5_apply, fpre_at]
  exact logistic_spelt _

/-- Term k of the sum over the children at (n, j) is entry (n, k, j). -/
theorem idx13 (n : Fin 10000) (j : Fin 128) (k : Fin 10) : idx_main_v13 (ix2 n j) k = ix3 n k j :=
  funext fun a => by match a with | ⟨0, _⟩ => rfl | ⟨1, _⟩ => rfl | ⟨2, _⟩ => rfl

/-- Folding back: entry (n, k, j) of the ten rows of 128 is the flat entry (n, 128 k + j), since the row-major position
    (n * 10 + k) * 128 + j is 1280 n + (128 k + j) with 128 k + j below 1280. -/
theorem idx11 (n : Fin 10000) (k : Fin 10) (j : Fin 128) : idx_main_v11 (ix3 n k j) = ix2 n (Spec.col k j) := by
  refine funext fun a => Fin.ext ?_
  have hn := n.isLt; have hk := k.isLt; have hj := j.isLt
  match a with
  | ⟨0, _⟩ => show ((n.val * 10 + k.val) * 128 + j.val) / 1280 = n.val; omega
  | ⟨1, _⟩ => show ((n.val * 10 + k.val) * 128 + j.val) % 1280 = k.val * 128 + j.val; omega

/-- The reduced memory at (n, j): zero plus the sum over the ten children k of the forget gate at 128 k + j times the
    child's memory at lane j. -/
theorem cred_at (n : Fin 10000) (j : Fin 128) :
    val_main_v13 (F := Ideal) x0 x1 x2 x3 (ix2 n j)
      = Spec.cred (fun k q => x2 (ix2 k q)) (fun q => x3 (ix1 q)) (Spec.rowOf x0 n) (Spec.memOf x1 n) j := by
  rw [val_main_v13_apply, val_main_cst_1_apply, Ideal.ofBits_def, Ideal.ofBits_zero_f32, zero_add]
  unfold Spec.cred
  refine Finset.sum_congr rfl fun k _ => ?_
  rw [idx13, val_main_v12_apply, val_main_v11_apply, idx11, f_at]
  rfl

/-! ## The three gates -/

/-- Term k of the gate product at (n, o) reads the flat row at (n, k) … -/
theorem lidx15 (n : Fin 10000) (o : Fin 384) (k : Fin 1280) : lidx_main_v15 (ix2 n o) k = ix2 n k :=
  funext fun a => by match a with | ⟨0, _⟩ => rfl | ⟨1, _⟩ => rfl
/-- … and the transposed gate weights at (k, o) … -/
theorem ridx15 (n : Fin 10000) (o : Fin 384) (k : Fin 1280) : ridx_main_v15 (ix2 n o) k = ix2 k o :=
  funext fun a => by match a with | ⟨0, _⟩ => rfl | ⟨1, _⟩ => rfl
/-- … which are the gate weights as stored at (o, k). -/
theorem idx14 (k : Fin 1280) (o : Fin 384) : idx_main_v14 (ix2 k o) = ix2 o k :=
  funext fun a => by match a with | ⟨0, _⟩ => rfl | ⟨1, _⟩ => rfl
/-- The gate bias broadcast over the nodes reads its one row at column o. -/
theorem idx16 (n : Fin 10000) (o : Fin 384) : idx_main_v16 (ix2 n o) = ix2 (0 : Fin 1) o :=
  funext fun a => by match a with | ⟨0, _⟩ => rfl | ⟨1, _⟩ => rfl

/-- The gates' pre-activation at (n, o): the flat row of node n times row o of the stored gate weights, plus the bias at o. -/
theorem iou_at (n : Fin 10000) (o : Fin 384) :
    val_main_v17 (F := Ideal) x0 x4 x5 (ix2 n o)
      = Spec.iou (fun k o => x4 (ix2 o k)) (fun o => x5 (ix2 (0 : Fin 1) o)) (Spec.rowOf x0 n) o := by
  rw [val_main_v17_apply, val_main_v15_apply, val_main_v16_apply, idx16]
  unfold Spec.iou
  refine congrArg₂ (· + ·) (Finset.sum_congr rfl fun k _ => ?_) rfl
  rw [lidx15, ridx15, row_at, val_main_v14_apply, idx14]

/-- The slice at column offset 0 reads column j: the input third. -/
theorem idx18 (n : Fin 10000) (j : Fin 128) : idx_main_v18 (ix2 n j) = ix2 n (Spec.gi j) :=
  funext fun a => by match a with | ⟨0, _⟩ => rfl | ⟨1, _⟩ => rfl
/-- The slice at column offset 128 reads column 128 + j: the output third. -/
theorem idx19 (n : Fin 10000) (j : Fin 128) : idx_main_v19 (ix2 n j) = ix2 n (Spec.go j) :=
  funext fun a => by match a with | ⟨0, _⟩ => rfl | ⟨1, _⟩ => rfl
/-- The slice at column offset 256 reads column 256 + j: the update third. -/
theorem idx20 (n : Fin 10000) (j : Fin 128) : idx_main_v20 (ix2 n j) = ix2 n (Spec.gu j) :=
  funext fun a => by match a with | ⟨0, _⟩ => rfl | ⟨1, _⟩ => rfl

/-- The input gate at (n, j) is the logistic function of the pre-activation at entry j. -/
theorem i_at (n : Fin 10000) (j : Fin 128) :
    val_main_v26 (F := Ideal) x0 x4 x5 (ix2 n j)
      = Ideal.logistic (Spec.iou (fun k o => x4 (ix2 o k)) (fun o => x5 (ix2 (0 : Fin 1) o)) (Spec.rowOf x0 n) (Spec.gi j)) := by
  rw [val_main_v26_apply, val_main_v25_apply, val_main_cst_3_apply, val_main_v24_apply, val_main_v23_apply,
    val_main_cst_2_apply, val_main_v22_apply, val_main_v21_apply, val_main_v18_apply, idx18, iou_at]
  exact logistic_spelt _

/-- The output gate at (n, j) is the logistic function of the pre-activation at entry 128 + j. -/
theorem o_at (n : Fin 10000) (j : Fin 128) :
    val_main_v32 (F := Ideal) x0 x4 x5 (ix2 n j)
      = Ideal.logistic (Spec.iou (fun k o => x4 (ix2 o k)) (fun o => x5 (ix2 (0 : Fin 1) o)) (Spec.rowOf x0 n) (Spec.go j)) := by
  rw [val_main_v32_apply, val_main_v31_apply, val_main_cst_5_apply, val_main_v30_apply, val_main_v29_apply,
    val_main_cst_4_apply, val_main_v28_apply, val_main_v27_apply, val_main_v19_apply, idx19, iou_at]
  exact logistic_spelt _

/-- The update gate at (n, j) is the hyperbolic tangent of the pre-activation at entry 256 + j. -/
theorem u_at (n : Fin 10000) (j : Fin 128) :
    val_main_v33 (F := Ideal) x0 x4 x5 (ix2 n j)
      = Ideal.tanh (Spec.iou (fun k o => x4 (ix2 o k)) (fun o => x5 (ix2 (0 : Fin 1) o)) (Spec.rowOf x0 n) (Spec.gu j)) := by
  rw [val_main_v33_apply, val_main_v20_apply, idx20, iou_at]
  rfl

/-! ## The two results at a node and a lane -/

/-- The new memory at (n, j): input gate times update gate, plus the reduced memory. -/
theorem c_at (n : Fin 10000) (j : Fin 128) :
    val_main_v35 (F := Ideal) x0 x1 x2 x3 x4 x5 (ix2 n j) = Spec.cAt x0 x1 x2 x3 x4 x5 n j := by
  rw [val_main_v35_apply, val_main_v34_apply, i_at, u_at, cred_at]
  rfl

/-- The new hidden state at (n, j): output gate times the hyperbolic tangent of the new memory. -/
theorem h_at (n : Fin 10000) (j : Fin 128) :
    val_main_v37 (F := Ideal) x0 x1 x2 x3 x4 x5 (ix2 n j) = Spec.hAt x0 x1 x2 x3 x4 x5 n j := by
  rw [val_main_v37_apply, val_main_v36_apply, o_at, c_at]
  rfl

end Stages

/-! ## The two results as arrays -/

/-- The reference's new memories are the specification's array of new memories. -/
theorem c_eq (x0 x1 : (⟨S10000x10x128, .f32⟩ : BufTy).Contents (Elt Ideal)) (x2 : (⟨S1280x1280, .f32⟩ : BufTy).Contents (Elt Ideal)) (x3 : (⟨S1280, .f32⟩ : BufTy).Contents (Elt Ideal)) (x4 : (⟨S384x1280, .f32⟩ : BufTy).Contents (Elt Ideal)) (x5 : (⟨S1x384, .f32⟩ : BufTy).Contents (Elt Ideal)) :
    Cert.ReferenceIdeal.Read.val_main_v35 (F := Ideal) x0 x1 x2 x3 x4 x5 = Cert.Spec.C x0 x1 x2 x3 x4 x5 := by
  funext i
  obtain ⟨n, j, rfl⟩ : ∃ (n : Fin 10000) (j : Fin 128), i = ix2 n j := ⟨i 0, i 1, eq_ix2 i⟩
  rw [Spec.C_apply]
  exact c_at x0 x1 x2 x3 x4 x5 n j

/-- The reference's new hidden states are the specification's array of new hidden states. -/
theorem h_eq (x0 x1 : (⟨S10000x10x128, .f32⟩ : BufTy).Contents (Elt Ideal)) (x2 : (⟨S1280x1280, .f32⟩ : BufTy).Contents (Elt Ideal)) (x3 : (⟨S1280, .f32⟩ : BufTy).Contents (Elt Ideal)) (x4 : (⟨S384x1280, .f32⟩ : BufTy).Contents (Elt Ideal)) (x5 : (⟨S1x384, .f32⟩ : BufTy).Contents (Elt Ideal)) :
    Cert.ReferenceIdeal.Read.val_main_v37 (F := Ideal) x0 x1 x2 x3 x4 x5 = Cert.Spec.H x0 x1 x2 x3 x4 x5 := by
  funext i
  obtain ⟨n, j, rfl⟩ : ∃ (n : Fin 10000) (j : Fin 128), i = ix2 n j := ⟨i 0, i 1, eq_ix2 i⟩
  rw [Spec.H_apply]
  exact h_at x0 x1 x2 x3 x4 x5 n j

end Cert.ReferenceIdeal.RefSpec

end
-- ==== Proof.KBody.lean ====
/-
  The kernel body's arithmetic as functions of what it loads, for any float model.

  One grid step holds a block of 1000 nodes: the children's hidden rows as ten slabs of 1000 x 128 (slab k is child k),
  the children's memories likewise, and the weights. The body first lays the ten hidden slabs side by side in a
  1000 x 1280 buffer, slab k filling columns 128 k to 128 k + 127 (hcat), multiplies that buffer by a 1280 x 1664 weight
  matrix whose columns 0 to 1279 are the forget weights and whose columns 1280 to 1663 are the gate weights (wcat),
  and from the product computes the new memories (bodyC) and the new hidden states (bodyH) of the 1000 nodes.
-/
import proofs.«159745_g52183852646691_cont_8to1_c_618_28_alg».proof.Proof.Gen.KernelIdeal.Skeleton
import Idealize.ShloMosaic.Lib.Pipeline.Value

noncomputable section

namespace Cert.KernelIdeal.Body

open Cert.KernelIdeal Cert.KernelIdeal.Gen Idealize.ShloMosaic

variable {F : FTy → Type} [FloatOps F]

/-- Slab 0 of a block of ten slabs. -/
abbrev slab0 (x : Vec F S10x1000x128 .f32) : Vec F S1x1000x128 .f32 :=
  View.ld x (Rect.unit ![0, 0, 0] S1x1000x128.size inb_S10x1000x128_S1x1000x128_0_0_0)
/-- Slab 1 of a block of ten slabs. -/
abbrev slab1 (x : Vec F S10x1000x128 .f32) : Vec F S1x1000x128 .f32 :=
  View.ld x (Rect.unit ![1, 0, 0] S1x1000x128.size inb_S10x1000x128_S1x1000x128_1_0_0)
/-- Slab 2 of a block of ten slabs. -/
abbrev slab2 (x : Vec F S10x1000x128 .f32) : Vec F S1x1000x128 .f32 :=
  View.ld x (Rect.unit ![2, 0, 0] S1x1000x128.size inb_S10x1000x128_S1x1000x128_2_0_0)
/-- Slab 3 of a block of ten slabs. -/
abbrev slab3 (x : Vec F S10x1000x128 .f32) : Vec F S1x1000x128 .f32 :=
  View.ld x (Rect.unit ![3, 0, 0] S1x1000x128.size inb_S10x1000x128_S1x1000x128_3_0_0)
/-- Slab 4 of a block of ten slabs. -/
abbrev slab4 (x : Vec F S10x1000x128 .f32) : Vec F S1x1000x128 .f32 :=
  View.ld x (Rect.unit ![4, 0, 0] S1x1000x128.size inb_S10x1000x128_S1x1000x128_4_0_0)
/-- Slab 5 of a block of ten slabs. -/
abbrev slab5 (x : Vec F S10x1000x128 .f32) : Vec F S1x1000x128 .f32 :=
  View.ld x (Rect.unit ![5, 0, 0] S1x1000x128.size inb_S10x1000x128_S1x1000x128_5_0_0)
/-- Slab 6 of a block of ten slabs. -/
abbrev slab6 (x : Vec F S10x1000x128 .f32) : Vec F S1x1000x128 .f32 :=
  View.ld x (Rect.unit ![6, 0, 0] S1x1000x128.size inb_S10x1000x128_S1x1000x128_6_0_0)
/-- Slab 7 of a block of ten slabs. -/
abbrev slab7 (x : Vec F S10x1000x128 .f32) : Vec F S1x1000x128 .f32 :=
  View.ld x (Rect.unit ![7, 0, 0] S1x1000x128.size inb_S10x1000x128_S1x1000x128_7_0_0)
/-- Slab 8 of a block of ten slabs. -/
abbrev slab8 (x : Vec F S10x1000x128 .f32) : Vec F S1x1000x128 .f32 :=
  View.ld x (Rect.unit ![8, 0, 0] S1x1000x128.size inb_S10x1000x128_S1x1000x128_8_0_0)
/-- Slab 9 of a block of ten slabs. -/
abbrev slab9 (x : Vec F S10x1000x128 .f32) : Vec F S1x1000x128 .f32 :=
  View.ld x (Rect.unit ![9, 0, 0] S1x1000x128.size inb_S10x1000x128_S1x1000x128_9_0_0)

/-- The ten hidden slabs laid side by side: band k of the 1000 x 1280 buffer is slab k, rounded to the buffer's format. -/
def hcat (x0 : Vec F S10x1000x128 .f32) : Vec F S1000x1280 .bf16 :=
  View.canon [
    ⟨Rect.unit ![0, 1152] S1000x128.size inb_S1000x1280_S1000x128_0_1152, k0_pay15 (k0_pay14 (slab9 x0))⟩,
    ⟨Rect.unit ![0, 1024] S1000x128.size inb_S1000x1280_S1000x128_0_1024, k0_pay13 (slab8 x0)⟩,
    ⟨Rect.unit ![0, 896] S1000x128.size inb_S1000x1280_S1000x128_0_896, k0_pay12 (slab7 x0)⟩,
    ⟨Rect.unit ![0, 768] S1000x128.size inb_S1000x1280_S1000x128_0_768, k0_pay11 (slab6 x0)⟩,
    ⟨Rect.unit ![0, 640] S1000x128.size inb_S1000x1280_S1000x128_0_640, k0_pay10 (slab5 x0)⟩,
    ⟨Rect.unit ![0, 512] S1000x128.size inb_S1000x1280_S1000x128_0_512, k0_pay9 (k0_pay8 (slab4 x0))⟩,
    ⟨Rect.unit ![0, 384] S1000x128.size inb_S1000x1280_S1000x128_0_384, k0_pay7 (slab3 x0)⟩,
    ⟨Rect.unit ![0, 256] S1000x128.size inb_S1000x1280_S1000x128_0_256, k0_pay6 (slab2 x0)⟩,
    ⟨Rect.unit ![0, 128] S1000x128.size inb_S1000x1280_S1000x128_0_128, k0_pay5 (slab1 x0)⟩,
    ⟨Rect.unit ![0, 0] S1000x128.size inb_S1000x1280_S1000x128_0_0, k0_pay4 (slab0 x0)⟩]

/-- The two weight matrices side by side: columns 0 to 1279 the forget weights, columns 1280 to 1663 the gate weights,
    both rounded to the buffer's format. -/
def wcat (x2 : Vec F S1280x1280 .f32) (x4 : Vec F S1280x384 .f32) : Vec F S1280x1664 .bf16 :=
  View.canon [
    ⟨Rect.unit ![0, 1280] S1280x384.size inb_S1280x1664_S1280x384_0_1280, k0_pay3 x4⟩,
    ⟨Rect.unit ![0, 0] S1280x1280.size inb_S1280x1664_S1280x1280_0_0, k0_pay2 x2⟩]

/-- The new memories of the block's nodes, from the hidden slabs x0, the memory slabs x1, the side-by-side weights W,
    the forget bias row x3 and the gate bias row x5. -/
def bodyC (x0 x1 : Vec F S10x1000x128 .f32) (W : Vec F S1280x1664 .bf16) (x3 : Vec F S1x1280 .f32)
    (x5 : Vec F S1x384 .f32) : Vec F S1000x128 .f32 :=
  k0_pay23 (k0_pay17 (hcat x0) W x3) (k0_pay18 (hcat x0) W)
    (k0_pay19 (hcat x0) W x3 (slab0 x1) (slab1 x1) (slab2 x1) (slab3 x1)) (k0_pay20 (hcat x0) W x3)
    (slab4 x1) (slab5 x1) (slab6 x1) (slab7 x1) (slab8 x1) (slab9 x1) x5

/-- The new hidden states of the block's nodes. -/
def bodyH (x0 x1 : Vec F S10x1000x128 .f32) (W : Vec F S1280x1664 .bf16) (x3 : Vec F S1x1280 .f32)
    (x5 : Vec F S1x384 .f32) : Vec F S1000x128 .f32 :=
  k0_pay1 (k0_pay22 (k0_pay18 (hcat x0) W) x5) (bodyC x0 x1 W x3 x5)

end Cert.KernelIdeal.Body

end
-- ==== Proof.KPieces.lean ====
/-
  What one grid step leaves, as the body's functions of the blocks it was given — for any float model.

  The run of the body found, for each output block and for the weight buffer it keeps between steps, the list of
  stores that end up in it. Each output block is covered by ONE store of the whole block, so it holds that store's
  value: the new hidden states (output 6) and the new memories (output 7) computed from the ten hidden slabs laid side
  by side — read back from the buffer the body assembled them in — and from the weight buffer. At the first grid step
  the body has just filled the weight buffer with the two weight matrices side by side, and reads that back; at every
  later step it reads what the buffer already held.
-/
import proofs.«159745_g52183852646691_cont_8to1_c_618_28_alg».proof.Proof.Gen.KernelIdeal.Frame
import proofs.«159745_g52183852646691_cont_8to1_c_618_28_alg».proof.Proof.KBody
import Idealize.ShloMosaic.Lib.Pipeline.Value

set_option maxRecDepth 16384

noncomputable section

namespace Cert.KernelIdeal.Pieces

open Cert.KernelIdeal Cert.KernelIdeal.Gen Cert.KernelIdeal.Body Idealize.ShloMosaic Idealize.ShloMosaic.TcCoe Idealize.SL.Sem
  Idealize.ShloMosaic.Tactic

variable {F : FTy → Type} [FloatOps F]
variable (c : Dev nD) (i : grid0.Coords) (arg1 : Memref sig .tc .vmem S10x1000x128 .f32) (harg1 : arg1.IsWhole) (arg2 : Memref sig .tc .vmem S10x1000x128 .f32) (harg2 : arg2.IsWhole) (arg3 : Memref sig .tc .vmem S1280x1280 .f32) (harg3 : arg3.IsWhole) (arg4 : Memref sig .tc .vmem S1x1280 .f32) (harg4 : arg4.IsWhole) (arg5 : Memref sig .tc .vmem S1280x384 .f32) (harg5 : arg5.IsWhole) (arg6 : Memref sig .tc .vmem S1x384 .f32) (harg6 : arg6.IsWhole) (arg7 : Memref sig .tc .vmem S1000x128 .f32) (harg7 : arg7.IsWhole) (arg8 : Memref sig .tc .vmem S1000x128 .f32) (harg8 : arg8.IsWhole) (arg9 : Memref sig .tc .vmem S1000x1280 .bf16) (harg9 : arg9.IsWhole) (arg10 : Memref sig .tc .vmem S1280x1664 .bf16) (harg10 : arg10.IsWhole)

theorem hz2 : (![0, 0] : Fin 2 → Nat) = fun _ => 0 := funext fun a => by fin_cases a <;> rfl

/-- Reading the whole side-by-side hidden buffer back gives the buffer. -/
theorem ld_hcat (x0 : Vec F S10x1000x128 .f32) :
    View.ld (hcat x0) (Rect.unit ![0, 0] S1000x1280.size inb_S1000x1280_S1000x1280_0_0) = hcat x0 :=
  View.ld_unit_zero (S := S1000x1280) hz2 _ (hcat x0)

/-- Reading the whole weight buffer back gives the buffer. -/
theorem ld_wcat (x2 : Vec F S1280x1280 .f32) (x4 : Vec F S1280x384 .f32) :
    View.ld (wcat x2 x4) (Rect.unit ![0, 0] S1280x1664.size inb_S1280x1664_S1280x1664_0_0) = wcat x2 x4 :=
  View.ld_unit_zero (S := S1280x1664) hz2 _ (wcat x2 x4)

/-- A later grid step leaves in the memory output block the new memories computed with the weights the buffer held. -/
theorem out7_B (hc0 : ¬cond0_0 i) (x0 : Vec F S10x1000x128 .f32) (x1 : Vec F S10x1000x128 .f32) (x2 : Vec F S1280x1280 .f32) (x3 : Vec F S1x1280 .f32) (x4 : Vec F S1280x384 .f32) (x5 : Vec F S1x384 .f32) (xs1 : Vec F S1280x1664 .bf16) :
    out0_B_7 c i arg1 harg1 arg2 harg2 arg3 harg3 arg4 harg4 arg5 harg5 arg6 harg6 arg7 harg7 arg8 harg8 arg9 harg9 arg10 harg10 hc0 x0 x1 x2 x3 x4 x5 xs1 = bodyC x0 x1 xs1 x3 x5 := by
  unfold out0_B_7
  rw [View.read_writes_eq_canon _ _ _ (cover0_B_7 c i arg1 harg1 arg2 harg2 arg3 harg3 arg4 harg4 arg5 harg5 arg6 harg6 arg7 harg7 arg8 harg8 arg9 harg9 arg10 harg10 hc0 x0 x1 x2 x3 x4 x5 xs1)]
  unfold kernelRun0_B
  dsimp only
  sl_unfold_words
  rw [View.canon_unit_zero hz2]
  simp only [View.readAt_eq_ld, harg1.read_unread, harg2.read_unread, harg4.read_unread, harg6.read_unread, harg10.read_unread,
    View.ld_unit_zero (S := S1280x1664) hz2, View.ld_unit_zero (S := S1x1280) hz2, View.ld_unit_zero (S := S1x384) hz2, View.readCov_eq_canon']
  unfold bodyC
  rw [← ld_hcat x0]
  rfl

/-- A later grid step leaves in the hidden output block the new hidden states. -/
theorem out6_B (hc0 : ¬cond0_0 i) (x0 : Vec F S10x1000x128 .f32) (x1 : Vec F S10x1000x128 .f32) (x2 : Vec F S1280x1280 .f32) (x3 : Vec F S1x1280 .f32) (x4 : Vec F S1280x384 .f32) (x5 : Vec F S1x384 .f32) (xs1 : Vec F S1280x1664 .bf16) :
    out0_B_6 c i arg1 harg1 arg2 harg2 arg3 harg3 arg4 harg4 arg5 harg5 arg6 harg6 arg7 harg7 arg8 harg8 arg9 harg9 arg10 harg10 hc0 x0 x1 x2 x3 x4 x5 xs1 = bodyH x0 x1 xs1 x3 x5 := by
  unfold out0_B_6
  rw [View.read_writes_eq_canon _ _ _ (cover0_B_6 c i arg1 harg1 arg2 harg2 arg3 harg3 arg4 harg4 arg5 harg5 arg6 harg6 arg7 harg7 arg8 harg8 arg9 harg9 arg10 harg10 hc0 x0 x1 x2 x3 x4 x5 xs1)]
  unfold kernelRun0_B
  dsimp only
  sl_unfold_words
  rw [View.canon_unit_zero hz2]
  simp only [View.readAt_eq_ld, harg1.read_unread, harg2.read_unread, harg4.read_unread, harg6.read_unread, harg10.read_unread,
    View.ld_unit_zero (S := S1280x1664) hz2, View.ld_unit_zero (S := S1x1280) hz2, View.ld_unit_zero (S := S1x384) hz2, View.readCov_eq_canon']
  unfold bodyH bodyC
  rw [← ld_hcat x0]
  rfl

/-- The first grid step leaves in the weight buffer the two weight matrices side by side. -/
theorem sout1_A (hc0 : cond0_0 i) (x0 : Vec F S10x1000x128 .f32) (x1 : Vec F S10x1000x128 .f32) (x2 : Vec F S1280x1280 .f32) (x3 : Vec F S1x1280 .f32) (x4 : Vec F S1280x384 .f32) (x5 : Vec F S1x384 .f32) :
    sout0_A_1 c i arg1 harg1 arg2 harg2 arg3 harg3 arg4 harg4 arg5 harg5 arg6 harg6 arg7 harg7 arg8 harg8 arg9 harg9 arg10 harg10 hc0 x0 x1 x2 x3 x4 x5 = wcat x2 x4 := by
  unfold sout0_A_1
  rw [View.read_writes_eq_canon _ _ _ (scover0_A_1 c i arg1 harg1 arg2 harg2 arg3 harg3 arg4 harg4 arg5 harg5 arg6 harg6 arg7 harg7 arg8 harg8 arg9 harg9 arg10 harg10 hc0 x0 x1 x2 x3 x4 x5)]
  unfold kernelRun0_A
  dsimp only
  sl_unfold_words
  simp only [View.readAt_eq_ld, harg3.read_unread, harg5.read_unread,
    View.ld_unit_zero (S := S1280x1280) hz2, View.ld_unit_zero (S := S1280x384) hz2]
  rfl

/-- The first grid step leaves in the memory output block the new memories computed with the weights it has just laid
    side by side. -/
theorem out7_A (hc0 : cond0_0 i) (x0 : Vec F S10x1000x128 .f32) (x1 : Vec F S10x1000x128 .f32) (x2 : Vec F S1280x1280 .f32) (x3 : Vec F S1x1280 .f32) (x4 : Vec F S1280x384 .f32) (x5 : Vec F S1x384 .f32) :
    out0_A_7 c i arg1 harg1 arg2 harg2 arg3 harg3 arg4 harg4 arg5 harg5 arg6 harg6 arg7 harg7 arg8 harg8 arg9 harg9 arg10 harg10 hc0 x0 x1 x2 x3 x4 x5 = bodyC x0 x1 (wcat x2 x4) x3 x5 := by
  unfold out0_A_7
  rw [View.read_writes_eq_canon _ _ _ (cover0_A_7 c i arg1 harg1 arg2 harg2 arg3 harg3 arg4 harg4 arg5 harg5 arg6 harg6 arg7 harg7 arg8 harg8 arg9 harg9 arg10 harg10 hc0 x0 x1 x2 x3 x4 x5)]
  unfold kernelRun0_A
  dsimp only
  sl_unfold_words
  rw [View.canon_unit_zero hz2]
  simp only [View.readAt_eq_ld, harg1.read_unread, harg2.read_unread, harg3.read_unread, harg4.read_unread, harg5.read_unread, harg6.read_unread,
    View.ld_unit_zero (S := S1280x1664) hz2, View.ld_unit_zero (S := S1x1280) hz2, View.ld_unit_zero (S := S1x384) hz2,
    View.ld_unit_zero (S := S1280x1280) hz2, View.ld_unit_zero (S := S1280x384) hz2, View.readCov_eq_canon']
  unfold bodyC
  rw [← ld_hcat x0, ← ld_wcat x2 x4]
  rfl

/-- The first grid step leaves in the hidden output block the new hidden states. -/
theorem out6_A (hc0 : cond0_0 i) (x0 : Vec F S10x1000x128 .f32) (x1 : Vec F S10x1000x128 .f32) (x2 : Vec F S1280x1280 .f32) (x3 : Vec F S1x1280 .f32) (x4 : Vec F S1280x384 .f32) (x5 : Vec F S1x384 .f32) :
    out0_A_6 c i arg1 harg1 arg2 harg2 arg3 harg3 arg4 harg4 arg5 harg5 arg6 harg6 arg7 harg7 arg8 harg8 arg9 harg9 arg10 harg10 hc0 x0 x1 x2 x3 x4 x5 = bodyH x0 x1 (wcat x2 x4) x3 x5 := by
  unfold out0_A_6
  rw [View.read_writes_eq_canon _ _ _ (cover0_A_6 c i arg1 harg1 arg2 harg2 arg3 harg3 arg4 harg4 arg5 harg5 arg6 harg6 arg7 harg7 arg8 harg8 arg9 harg9 arg10 harg10 hc0 x0 x1 x2 x3 x4 x5)]
  unfold kernelRun0_A
  dsimp only
  sl_unfold_words
  rw [View.canon_unit_zero hz2]
  simp only [View.readAt_eq_ld, harg1.read_unread, harg2.read_unread, harg3.read_unread, harg4.read_unread, harg5.read_unread, harg6.read_unread,
    View.ld_unit_zero (S := S1280x1664) hz2, View.ld_unit_zero (S := S1x1280) hz2, View.ld_unit_zero (S := S1x384) hz2,
    View.ld_unit_zero (S := S1280x1280) hz2, View.ld_unit_zero (S := S1280x384) hz2, View.readCov_eq_canon']
  unfold bodyH bodyC
  rw [← ld_hcat x0, ← ld_wcat x2 x4]
  rfl

end Cert.KernelIdeal.Pieces

end
-- ==== Proof.KSteps.lean ====
/-
  What the output blocks and the weight buffer hold after each grid step — for any float model.

  The grid has ten steps. The first fills the weight buffer with the two weight matrices side by side and nothing
  writes it afterwards, so after every step it holds what the first step put there. Hence every step, the first
  included, leaves in its two output blocks the new hidden states and new memories of its own block of nodes computed
  with those same weights: by induction on the step.
-/
import proofs.«159745_g52183852646691_cont_8to1_c_618_28_alg».proof.Proof.KPieces

set_option maxRecDepth 16384

noncomputable section

namespace Cert.KernelIdeal.Steps

open Cert.KernelIdeal Cert.KernelIdeal.Gen Cert.KernelIdeal.Body Cert.KernelIdeal.Pieces Idealize.ShloMosaic
  Idealize.ShloMosaic.TcCoe Idealize.SL.Sem

variable {F : FTy → Type} [FloatOps F]
variable (m : (ℓ : Loc nD τ sig) → Buf (Elt F) ℓ)

/-- The weight buffer as the first grid step leaves it: the first step's two weight blocks side by side. -/
abbrev wts (c : Dev nD) (h0 : 0 < cfg0.N) : Vec F S1280x1664 .bf16 :=
  wcat (iblk m c 2 ⟨0, h0⟩) (iblk m c 4 ⟨0, h0⟩)

/-- The first step: it lays the weights side by side, then computes with them. -/
theorem step0 (c : Dev nD) (h0 h : 0 < cfg0.N) :
    outsAt0 m c 0 h
      = (bodyH (iblk m c 0 ⟨0, h⟩) (iblk m c 1 ⟨0, h⟩) (wts m c h0) (iblk m c 3 ⟨0, h⟩) (iblk m c 5 ⟨0, h⟩),
         bodyC (iblk m c 0 ⟨0, h⟩) (iblk m c 1 ⟨0, h⟩) (wts m c h0) (iblk m c 3 ⟨0, h⟩) (iblk m c 5 ⟨0, h⟩),
         wts m c h0) := by
  have e1 := outsAt0_A m c ⟨0, h⟩ rfl
  have e6 := out6_A c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) (ms0_6 ⟨0, h⟩) (hs0_6 ⟨0, h⟩) (ms0_7 ⟨0, h⟩) (hs0_7 ⟨0, h⟩) scM0_0 (Memref.isWhole_whole _) scM0_1 (Memref.isWhole_whole _) ((hcond0_0 ⟨0, h⟩).mpr rfl) (iblk m c 0 ⟨0, h⟩) (iblk m c 1 ⟨0, h⟩) (iblk m c 2 ⟨0, h⟩) (iblk m c 3 ⟨0, h⟩) (iblk m c 4 ⟨0, h⟩) (iblk m c 5 ⟨0, h⟩)
  have e7 := out7_A c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) (ms0_6 ⟨0, h⟩) (hs0_6 ⟨0, h⟩) (ms0_7 ⟨0, h⟩) (hs0_7 ⟨0, h⟩) scM0_0 (Memref.isWhole_whole _) scM0_1 (Memref.isWhole_whole _) ((hcond0_0 ⟨0, h⟩).mpr rfl) (iblk m c 0 ⟨0, h⟩) (iblk m c 1 ⟨0, h⟩) (iblk m c 2 ⟨0, h⟩) (iblk m c 3 ⟨0, h⟩) (iblk m c 4 ⟨0, h⟩) (iblk m c 5 ⟨0, h⟩)
  have es := sout1_A c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) (ms0_6 ⟨0, h⟩) (hs0_6 ⟨0, h⟩) (ms0_7 ⟨0, h⟩) (hs0_7 ⟨0, h⟩) scM0_0 (Memref.isWhole_whole _) scM0_1 (Memref.isWhole_whole _) ((hcond0_0 ⟨0, h⟩).mpr rfl) (iblk m c 0 ⟨0, h⟩) (iblk m c 1 ⟨0, h⟩) (iblk m c 2 ⟨0, h⟩) (iblk m c 3 ⟨0, h⟩) (iblk m c 4 ⟨0, h⟩) (iblk m c 5 ⟨0, h⟩)
  rw [e6, e7, es] at e1
  exact e1

/-- A later step: the weight buffer still holds what the step before left, and the step computes with that. -/
theorem stepS (c : Dev nD) (h0 : 0 < cfg0.N) (n : ℕ) (h : n + 1 < cfg0.N)
    (ih : (outsAt0 m c n (Nat.lt_of_succ_lt h)).2.2 = wts m c h0) :
    outsAt0 m c (n + 1) h
      = (bodyH (iblk m c 0 ⟨n + 1, h⟩) (iblk m c 1 ⟨n + 1, h⟩) (wts m c h0) (iblk m c 3 ⟨n + 1, h⟩) (iblk m c 5 ⟨n + 1, h⟩),
         bodyC (iblk m c 0 ⟨n + 1, h⟩) (iblk m c 1 ⟨n + 1, h⟩) (wts m c h0) (iblk m c 3 ⟨n + 1, h⟩) (iblk m c 5 ⟨n + 1, h⟩),
         wts m c h0) := by
  have hN : cfg0.N = 10 := N_0
  have hB : ¬(⟨n + 1, h⟩ : Fin cfg0.N).val % 10 = 0 := by dsimp only; omega
  have e1 := outsAt0_B m c ⟨n + 1, h⟩ hB
  have ih' : (outsAt0 m c ((⟨n + 1, h⟩ : Fin cfg0.N).val - 1)
      (Nat.lt_of_le_of_lt (Nat.sub_le _ _) (⟨n + 1, h⟩ : Fin cfg0.N).isLt)).2.2 = wts m c h0 := ih
  rw [ih'] at e1
  have e6 := out6_B c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩) scM0_0 (Memref.isWhole_whole _) scM0_1 (Memref.isWhole_whole _) (fun hh => hB ((hcond0_0 ⟨n + 1, h⟩).mp hh)) (iblk m c 0 ⟨n + 1, h⟩) (iblk m c 1 ⟨n + 1, h⟩) (iblk m c 2 ⟨n + 1, h⟩) (iblk m c 3 ⟨n + 1, h⟩) (iblk m c 4 ⟨n + 1, h⟩) (iblk m c 5 ⟨n + 1, h⟩) (wts m c h0)
  have e7 := out7_B c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩) scM0_0 (Memref.isWhole_whole _) scM0_1 (Memref.isWhole_whole _) (fun hh => hB ((hcond0_0 ⟨n + 1, h⟩).mp hh)) (iblk m c 0 ⟨n + 1, h⟩) (iblk m c 1 ⟨n + 1, h⟩) (iblk m c 2 ⟨n + 1, h⟩) (iblk m c 3 ⟨n + 1, h⟩) (iblk m c 4 ⟨n + 1, h⟩) (iblk m c 5 ⟨n + 1, h⟩) (wts m c h0)
  have es : sout0_B_1 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩) scM0_0 (Memref.isWhole_whole _) scM0_1 (Memref.isWhole_whole _) (fun hh => hB ((hcond0_0 ⟨n + 1, h⟩).mp hh)) (iblk m c 0 ⟨n + 1, h⟩) (iblk m c 1 ⟨n + 1, h⟩) (iblk m c 2 ⟨n + 1, h⟩) (iblk m c 3 ⟨n + 1, h⟩) (iblk m c 4 ⟨n + 1, h⟩) (iblk m c 5 ⟨n + 1, h⟩) (wts m c h0)
      = wts m c h0 := by unfold sout0_B_1; rfl
  rw [e6, e7, es] at e1
  exact e1

/-- After step n the hidden output block, the memory output block and the weight buffer hold the body's two functions
    of step n's blocks with the first step's weights, and those weights. -/
theorem outsAt_eq (c : Dev nD) (h0 : 0 < cfg0.N) (n : ℕ) : ∀ h : n < cfg0.N,
    outsAt0 m c n h
      = (bodyH (iblk m c 0 ⟨n, h⟩) (iblk m c 1 ⟨n, h⟩) (wts m c h0) (iblk m c 3 ⟨n, h⟩) (iblk m c 5 ⟨n, h⟩),
         bodyC (iblk m c 0 ⟨n, h⟩) (iblk m c 1 ⟨n, h⟩) (wts m c h0) (iblk m c 3 ⟨n, h⟩) (iblk m c 5 ⟨n, h⟩),
         wts m c h0) := by
  induction n with
  | zero => intro h; exact step0 m c h0 h
  | succ n ih =>
    intro h
    exact stepS m c h0 n h (by rw [ih (Nat.lt_of_succ_lt h)])

end Cert.KernelIdeal.Steps

end
-- ==== Proof.KBlocks.lean ====
/-
  What each window's block holds at a grid step, in terms of the argument arrays — for any float model.

  Before the kernel is launched the host transposes the two mailboxes from node-major [10000, 10, 128] to child-major
  [10, 10000, 128], transposes the gate weights from [384, 1280] to [1280, 384], and views the forget bias [1280] as
  a one-row matrix [1, 1280]. Grid step t then sees rows 1000 t to 1000 t + 999 of the two child-major mailboxes — so
  entry (k, r, j) of its hidden block is the hidden state of node 1000 t + r, child k, lane j — and the whole of every
  weight and bias array; it writes rows 1000 t to 1000 t + 999 of the two result arrays, and the ten steps' row blocks
  fill those arrays.
-/
import proofs.«159745_g52183852646691_cont_8to1_c_618_28_alg».proof.Proof.Gen.KernelIdeal.Frame
import Idealize.ShloMosaic.Lib.Pipeline.Value
import Idealize.ShloMosaic.Lib.ValueIdx
import Idealize.ShloMosaic.Lib.StableHlo.Run

set_option maxRecDepth 16384

noncomputable section

namespace Cert.KernelIdeal.Blocks

open Cert.KernelIdeal Cert.KernelIdeal.Gen Idealize.ShloMosaic Idealize.ShloMosaic.TcCoe Idealize.SL.Sem
  Idealize.ShloMosaic.ValueIdx

variable {F : FTy → Type} [FloatOps F]
variable (m : (ℓ : Loc nD τ sig) → Buf (Elt F) ℓ)

/-- The node that row r of grid step t's block holds: node 1000 t + r. -/
abbrev node (t : Fin cfg0.N) (r : Fin 1000) : Fin 10000 :=
  ⟨t.val * 1000 + r.val, by have h1 := t.isLt; have hN : cfg0.N = 10 := N_0; have h2 := r.isLt; omega⟩

/-- The block index of every window at every grid step: the two mailboxes and the two results move along the node
    axis with the step, every other window stays at block zero. Decided over the ten steps. -/
theorem idx_facts : ∀ t : Fin cfg0.N,
    win0_0.index t (0 : Fin 3) = 0 ∧ win0_0.index t (1 : Fin 3) = t.val ∧ win0_0.index t (2 : Fin 3) = 0
    ∧ win0_1.index t (0 : Fin 3) = 0 ∧ win0_1.index t (1 : Fin 3) = t.val ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

/-! ## The arrays the host prepared -/

/-- The child-major hidden mailbox is the transpose of the hidden mailbox. -/
theorem V_v0 (c : Dev nD) : (V m c main_call0_v0 : S10x10000x128.Idx → Elt F .f32)
    = transpose S10x10000x128 [1, 0, 2] (m ((c : Thread nD τ).loc main_arg0)) transposes_S10000x10x128_S10x10000x128_1_0_2 := by
  dsimp only [V, hostOps0]; after_results; rfl

/-- The child-major memory mailbox is the transpose of the memory mailbox. -/
theorem V_v1 (c : Dev nD) : (V m c main_call0_v1 : S10x10000x128.Idx → Elt F .f32)
    = transpose S10x10000x128 [1, 0, 2] (m ((c : Thread nD τ).loc main_arg1)) transposes_S10000x10x128_S10x10000x128_1_0_2 := by
  dsimp only [V, hostOps0]; after_results; rfl

/-- The gate weights the kernel sees are the transpose of the stored gate weights. -/
theorem V_v2 (c : Dev nD) : (V m c main_call0_v2 : S1280x384.Idx → Elt F .f32)
    = transpose S1280x384 [1, 0] (m ((c : Thread nD τ).loc main_arg4)) transposes_S384x1280_S1280x384_1_0 := by
  dsimp only [V, hostOps0]; after_results; rfl

/-- The forget bias the kernel sees is the stored bias viewed as one row. -/
theorem V_v3 (c : Dev nD) : (V m c main_call0_v3 : S1x1280.Idx → Elt F .f32)
    = shapeCast S1x1280 (m ((c : Thread nD τ).loc main_arg3)) shapeCasts_S1280_S1x1280 := by
  dsimp only [V, hostOps0]; after_results; rfl

/-! ## The input blocks -/

/-- Entry (k, r, j) of step t's hidden block is the hidden state of node 1000 t + r, child k, lane j. -/
theorem blk0 (c : Dev nD) (t : Fin cfg0.N) (k : Fin 10) (r : Fin 1000) (j : Fin 128) :
    (iblk m c 0 t : Vec F S10x1000x128 .f32) (ix3 k r j) = m ((c : Thread nD τ).loc main_arg0) (ix3 (node t r) k j) := by
  obtain ⟨e0, e1, e2, -⟩ := idx_facts t
  unfold iblk
  rw [View.read_apply]
  show V m c main_call0_v0 (((cfg0.win 0).blk t).view.emb (ix3 k r j)) = _
  refine (congrFun (V_v0 m c) _).trans ?_
  refine transpose_apply [1, 0, 2] _ _ _ (ix3 (node t r) k j) (fun b => ?_)
  match b with
  | ⟨0, _⟩ => show k.val = win0_0.index t (0 : Fin 3) * 10 + 1 * k.val; rw [e0]; omega
  | ⟨1, _⟩ => show t.val * 1000 + r.val = win0_0.index t (1 : Fin 3) * 1000 + 1 * r.val; rw [e1]; omega
  | ⟨2, _⟩ => show j.val = win0_0.index t (2 : Fin 3) * 128 + 1 * j.val; rw [e2]; omega

/-- Entry (k, r, j) of step t's memory block is the memory of node 1000 t + r, child k, lane j. -/
theorem blk1 (c : Dev nD) (t : Fin cfg0.N) (k : Fin 10) (r : Fin 1000) (j : Fin 128) :
    (iblk m c 1 t : Vec F S10x1000x128 .f32) (ix3 k r j) = m ((c : Thread nD τ).loc main_arg1) (ix3 (node t r) k j) := by
  obtain ⟨-, -, -, e0, e1, e2, -⟩ := idx_facts t
  unfold iblk
  rw [View.read_apply]
  show V m c main_call0_v1 (((cfg0.win 1).blk t).view.emb (ix3 k r j)) = _
  refine (congrFun (V_v1 m c) _).trans ?_
  refine transpose_apply [1, 0, 2] _ _ _ (ix3 (node t r) k j) (fun b => ?_)
  match b with
  | ⟨0, _⟩ => show k.val = win0_1.index t (0 : Fin 3) * 10 + 1 * k.val; rw [e0]; omega
  | ⟨1, _⟩ => show t.val * 1000 + r.val = win0_1.index t (1 : Fin 3) * 1000 + 1 * r.val; rw [e1]; omega
  | ⟨2, _⟩ => show j.val = win0_1.index t (2 : Fin 3) * 128 + 1 * j.val; rw [e2]; omega

/-- Every step's forget-weight block is the whole forget-weight matrix. -/
theorem blk2 (c : Dev nD) (t : Fin cfg0.N) (k q : Fin 1280) :
    (iblk m c 2 t : Vec F S1280x1280 .f32) (ix2 k q) = m ((c : Thread nD τ).loc main_arg2) (ix2 k q) := by
  obtain ⟨-, -, -, -, -, -, e0, e1, -⟩ := idx_facts t
  unfold iblk
  rw [View.read_apply]
  show V m c main_arg2 (((cfg0.win 2).blk t).view.emb (ix2 k q)) = _
  refine (congrFun (V_main_arg2 m c) _).trans ?_
  refine congrArg (m ((c : Thread nD τ).loc main_arg2)) (funext fun a => Fin.ext ?_)
  match a with
  | ⟨0, _⟩ => show win0_2.index t (0 : Fin 2) * 1280 + 1 * k.val = k.val; rw [e0]; omega
  | ⟨1, _⟩ => show win0_2.index t (1 : Fin 2) * 1280 + 1 * q.val = q.val; rw [e1]; omega

/-- Every step's forget-bias block, a one-row matrix, holds the forget bias. -/
theorem blk3 (c : Dev nD) (t : Fin cfg0.N) (q : Fin 1280) :
    (iblk m c 3 t : Vec F S1x1280 .f32) (ix2 (0 : Fin 1) q) = m ((c : Thread nD τ).loc main_arg3) (ix1 q) := by
  obtain ⟨-, -, -, -, -, -, -, -, e0, e1, -⟩ := idx_facts t
  unfold iblk
  rw [View.read_apply]
  show V m c main_call0_v3 (((cfg0.win 3).blk t).view.emb (ix2 (0 : Fin 1) q)) = _
  have he : ((cfg0.win 3).blk t).view.emb (ix2 (0 : Fin 1) q) = ix2 (0 : Fin 1) q := by
    refine funext fun a => Fin.ext ?_
    match a with
    | ⟨0, _⟩ => show win0_3.index t (0 : Fin 2) * 1 + 1 * 0 = 0; rw [e0]
    | ⟨1, _⟩ => show win0_3.index t (1 : Fin 2) * 1280 + 1 * q.val = q.val; rw [e1]; omega
  rw [he]
  refine (congrFun (V_v3 m c) _).trans ?_
  exact shapeCast_apply (m ((c : Thread nD τ).loc main_arg3) : S1280.Idx → Elt F .f32) shapeCasts_S1280_S1x1280
    (ix2 (0 : Fin 1) q) (ix1 q) (by
      rw [Shape.rowMajor_val_two]
      show ((⟨1, ![1280]⟩ : Shape).rowMajor (ix1 q)).val = 0 * 1280 + q.val
      rw [Shape.rowMajor_val_one]
      show q.val = 0 * 1280 + q.val
      omega)

/-- Every step's gate-weight block is the stored gate weights transposed: entry (k, o) is the stored entry (o, k). -/
theorem blk4 (c : Dev nD) (t : Fin cfg0.N) (k : Fin 1280) (o : Fin 384) :
    (iblk m c 4 t : Vec F S1280x384 .f32) (ix2 k o) = m ((c : Thread nD τ).loc main_arg4) (ix2 o k) := by
  obtain ⟨-, -, -, -, -, -, -, -, -, -, e0, e1, -⟩ := idx_facts t
  unfold iblk
  rw [View.read_apply]
  show V m c main_call0_v2 (((cfg0.win 4).blk t).view.emb (ix2 k o)) = _
  refine (congrFun (V_v2 m c) _).trans ?_
  refine transpose_apply [1, 0] _ _ _ (ix2 o k) (fun b => ?_)
  match b with
  | ⟨0, _⟩ => show k.val = win0_4.index t (0 : Fin 2) * 1280 + 1 * k.val; rw [e0]; omega
  | ⟨1, _⟩ => show o.val = win0_4.index t (1 : Fin 2) * 384 + 1 * o.val; rw [e1]; omega

/-- Every step's gate-bias block is the whole one-row gate bias. -/
theorem blk5 (c : Dev nD) (t : Fin cfg0.N) (o : Fin 384) :
    (iblk m c 5 t : Vec F S1x384 .f32) (ix2 (0 : Fin 1) o) = m ((c : Thread nD τ).loc main_arg5) (ix2 (0 : Fin 1) o) := by
  obtain ⟨-, -, -, -, -, -, -, -, -, -, -, -, e0, e1, -⟩ := idx_facts t
  unfold iblk
  rw [View.read_apply]
  show V m c main_arg5 (((cfg0.win 5).blk t).view.emb (ix2 (0 : Fin 1) o)) = _
  refine (congrFun (V_main_arg5 m c) _).trans ?_
  refine congrArg (m ((c : Thread nD τ).loc main_arg5)) (funext fun a => Fin.ext ?_)
  match a with
  | ⟨0, _⟩ => show win0_5.index t (0 : Fin 2) * 1 + 1 * 0 = 0; rw [e0]
  | ⟨1, _⟩ => show win0_5.index t (1 : Fin 2) * 384 + 1 * o.val = o.val; rw [e1]; omega

/-! ## The output blocks -/

/-- Entry (r, j) of step t's hidden-result block sits in the result array at node 1000 t + r, lane j. -/
theorem emb6 (t : Fin cfg0.N) (r : Fin 1000) (j : Fin 128) :
    ((cfg0.win 6).blk t).view.emb (ix2 r j) = ix2 (node t r) j := by
  obtain ⟨-, -, -, -, -, -, -, -, -, -, -, -, -, -, e0, e1, -⟩ := idx_facts t
  refine funext fun a => Fin.ext ?_
  match a with
  | ⟨0, _⟩ => show win0_6.index t (0 : Fin 2) * 1000 + 1 * r.val = t.val * 1000 + r.val; rw [e0]; omega
  | ⟨1, _⟩ => show win0_6.index t (1 : Fin 2) * 128 + 1 * j.val = j.val; rw [e1]; omega

/-- Entry (r, j) of step t's memory-result block sits in the result array at node 1000 t + r, lane j. -/
theorem emb7 (t : Fin cfg0.N) (r : Fin 1000) (j : Fin 128) :
    ((cfg0.win 7).blk t).view.emb (ix2 r j) = ix2 (node t r) j := by
  obtain ⟨-, -, -, -, -, -, -, -, -, -, -, -, -, -, -, -, e0, e1⟩ := idx_facts t
  refine funext fun a => Fin.ext ?_
  match a with
  | ⟨0, _⟩ => show win0_7.index t (0 : Fin 2) * 1000 + 1 * r.val = t.val * 1000 + r.val; rw [e0]; omega
  | ⟨1, _⟩ => show win0_7.index t (1 : Fin 2) * 128 + 1 * j.val = j.val; rw [e1]; omega

/-- An index of the hidden-result array lies in step t's block iff each coordinate is in the block's range. -/
theorem mem_blk6 (t : Fin cfg0.N) (i : S10000x128.Idx) :
    i ∈ ((cfg0.win 6).blk t).view.set ↔ ∀ a : Fin 2, win0_6.index t a * S1000x128.size a ≤ (i a).val
      ∧ (i a).val < win0_6.index t a * S1000x128.size a + S1000x128.size a := by
  show i ∈ ((View.whole main_v0_0).slice (win0_6.rect t)).set ↔ _
  rw [View.set_slice_whole, Rect.mem_set_unit]
  exact Iff.rfl

/-- An index of the memory-result array lies in step t's block iff each coordinate is in the block's range. -/
theorem mem_blk7 (t : Fin cfg0.N) (i : S10000x128.Idx) :
    i ∈ ((cfg0.win 7).blk t).view.set ↔ ∀ a : Fin 2, win0_7.index t a * S1000x128.size a ≤ (i a).val
      ∧ (i a).val < win0_7.index t a * S1000x128.size a + S1000x128.size a := by
  show i ∈ ((View.whole main_v0_1).slice (win0_7.rect t)).set ↔ _
  rw [View.set_slice_whole, Rect.mem_set_unit]
  exact Iff.rfl

/-- The grid step whose block holds row n of a result array: step n / 1000. -/
abbrev stepOf (i : S10000x128.Idx) : Fin cfg0.N :=
  ⟨(i 0).val / 1000, by have h : (i 0).val < 10000 := (i 0).isLt; rw [show cfg0.N = 10 from N_0]; omega⟩

/-- The ten steps' blocks fill the hidden-result array. -/
theorem cover6 (i : S10000x128.Idx) : ∃ t : Fin cfg0.N, (cfg0.win 6).flush t = true ∧ i ∈ ((cfg0.win 6).blk t).view.set := by
  refine ⟨stepOf i, flush0_6 _, ?_⟩
  obtain ⟨-, -, -, -, -, -, -, -, -, -, -, -, -, -, e0, e1, -⟩ := idx_facts (stepOf i)
  rw [mem_blk6]
  have h0 : (i 0).val < 10000 := (i 0).isLt
  have h1 : (i 1).val < 128 := (i 1).isLt
  intro a
  match a with
  | ⟨0, _⟩ =>
    show win0_6.index (stepOf i) (0 : Fin 2) * 1000 ≤ (i 0).val ∧ (i 0).val < win0_6.index (stepOf i) (0 : Fin 2) * 1000 + 1000
    rw [e0]; show (i 0).val / 1000 * 1000 ≤ (i 0).val ∧ (i 0).val < (i 0).val / 1000 * 1000 + 1000; omega
  | ⟨1, _⟩ =>
    show win0_6.index (stepOf i) (1 : Fin 2) * 128 ≤ (i 1).val ∧ (i 1).val < win0_6.index (stepOf i) (1 : Fin 2) * 128 + 128
    rw [e1]; omega

/-- The ten steps' blocks fill the memory-result array. -/
theorem cover7 (i : S10000x128.Idx) : ∃ t : Fin cfg0.N, (cfg0.win 7).flush t = true ∧ i ∈ ((cfg0.win 7).blk t).view.set := by
  refine ⟨stepOf i, flush0_7 _, ?_⟩
  obtain ⟨-, -, -, -, -, -, -, -, -, -, -, -, -, -, -, -, e0, e1⟩ := idx_facts (stepOf i)
  rw [mem_blk7]
  have h0 : (i 0).val < 10000 := (i 0).isLt
  have h1 : (i 1).val < 128 := (i 1).isLt
  intro a
  match a with
  | ⟨0, _⟩ =>
    show win0_7.index (stepOf i) (0 : Fin 2) * 1000 ≤ (i 0).val ∧ (i 0).val < win0_7.index (stepOf i) (0 : Fin 2) * 1000 + 1000
    rw [e0]; show (i 0).val / 1000 * 1000 ≤ (i 0).val ∧ (i 0).val < (i 0).val / 1000 * 1000 + 1000; omega
  | ⟨1, _⟩ =>
    show win0_7.index (stepOf i) (1 : Fin 2) * 128 ≤ (i 1).val ∧ (i 1).val < win0_7.index (stepOf i) (1 : Fin 2) * 128 + 128
    rw [e1]; omega

end Cert.KernelIdeal.Blocks

end
-- ==== Proof.LibPlainDot.lean ====
/-
  A plain matrix product read at an index.

  The dimension numbers of an [a, c] × [c, b] → [a, b] product contract the left operand's axis 1 with the right
  operand's axis 0 and have no batch axis. At result index (p, q) and contraction position k the left operand is
  read at (p, k) and the right operand at (k, q), so the sum over the contraction shape's one-axis index set is the
  sum over k : Fin c of lhs (p, k) * rhs (k, q) — in any commutative additive monoid with a product, the extended
  reals included. The statement is over variable extents; a printed record with these six lists is this one by
  reflexivity.
-/
import Idealize.ShloMosaic.Lib.ValueIdx
import Idealize.ShloMosaic.PureOps.Ideal.Laws

noncomputable section

namespace Cert.Lib.PlainDot

open Idealize.ShloMosaic Idealize.ShloMosaic.ValueIdx
open scoped BigOperators

variable {a c b : Nat}

/-- The dimension numbers of the plain product [a, c] × [c, b] → [a, b]. -/
abbrev dims (wf : DotDims.WF ⟨2, ![a, c]⟩ ⟨2, ![c, b]⟩ ⟨2, ![a, b]⟩ [1] [0] [0] [1] [] []) :
    DotDims ⟨2, ![a, c]⟩ ⟨2, ![c, b]⟩ ⟨2, ![a, b]⟩ where
  lhsContracting := [1]
  rhsContracting := [0]
  lhsNonContracting := [0]
  rhsNonContracting := [1]
  lhsBatch := []
  rhsBatch := []
  wf := wf

variable (wf : DotDims.WF ⟨2, ![a, c]⟩ ⟨2, ![c, b]⟩ ⟨2, ![a, b]⟩ [1] [0] [0] [1] [] [])

/-- The left operand's row is the result's row. -/
theorem lhs_row (i : (⟨2, ![a, b]⟩ : Shape).Idx) (k : (dims wf).contr.Idx) :
    ((dims wf).lhsIdx i k 0).val = (i 0).val := by
  unfold DotDims.lhsIdx
  rw [dif_neg (show ¬(0 : Fin 2) ∈ (dims wf).lhsBatch from List.not_mem_nil),
    dif_pos (show (0 : Fin 2) ∈ (dims wf).lhsNonContracting from List.mem_singleton.mpr rfl)]
  rfl

/-- The left operand's column is the contraction position. -/
theorem lhs_col (i : (⟨2, ![a, b]⟩ : Shape).Idx) (k : (dims wf).contr.Idx) :
    ((dims wf).lhsIdx i k 1).val = (k ⟨0, Nat.one_pos⟩).val :=
  (dims wf).lhsIdx_val_of_single rfl i k

/-- The right operand's row is the contraction position. -/
theorem rhs_row (i : (⟨2, ![a, b]⟩ : Shape).Idx) (k : (dims wf).contr.Idx) :
    ((dims wf).rhsIdx i k 0).val = (k ⟨0, Nat.one_pos⟩).val :=
  (dims wf).rhsIdx_val_of_single rfl i k

/-- The right operand's column is the result's column. -/
theorem rhs_col (i : (⟨2, ![a, b]⟩ : Shape).Idx) (k : (dims wf).contr.Idx) :
    ((dims wf).rhsIdx i k 1).val = (i 1).val := by
  unfold DotDims.rhsIdx
  rw [dif_neg (show ¬(1 : Fin 2) ∈ (dims wf).rhsBatch from List.not_mem_nil),
    dif_pos (show (1 : Fin 2) ∈ (dims wf).rhsNonContracting from List.mem_singleton.mpr rfl)]
  rfl

/-- The product's sum at (p, q): over k, the left operand at (p, k) times the right operand at (k, q). -/
theorem sum_apply {M : Type*} [AddCommMonoid M] [Mul M] (lhs : (⟨2, ![a, c]⟩ : Shape).Idx → M)
    (rhs : (⟨2, ![c, b]⟩ : Shape).Idx → M) (p : Fin a) (q : Fin b) :
    ∑ k : (dims wf).contr.Idx, lhs ((dims wf).lhsIdx (ix2 p q) k) * rhs ((dims wf).rhsIdx (ix2 p q) k)
      = ∑ k : Fin c, lhs (ix2 p k) * rhs (ix2 k q) := by
  rw [← Equiv.sum_comp (contrEquiv1 (dims wf) c rfl rfl).symm]
  refine Finset.sum_congr rfl fun k _ => ?_
  have hk := contrEquiv1_symm_val (dims wf) c rfl rfl k
  have el : (dims wf).lhsIdx (ix2 p q) ((contrEquiv1 (dims wf) c rfl rfl).symm k) = ix2 p k :=
    funext fun ax => Fin.ext (by
      match ax with
      | ⟨0, _⟩ => exact lhs_row wf _ _
      | ⟨1, _⟩ => exact (lhs_col wf _ _).trans hk)
  have er : (dims wf).rhsIdx (ix2 p q) ((contrEquiv1 (dims wf) c rfl rfl).symm k) = ix2 k q :=
    funext fun ax => Fin.ext (by
      match ax with
      | ⟨0, _⟩ => exact (rhs_row wf _ _).trans hk
      | ⟨1, _⟩ => exact rhs_col wf _ _)
  rw [el, er]

/-- A kernel's product into a zero accumulator, at the exact values, read at (p, q). -/
theorem matmul_zero_apply {φ₁ φ₂ : FTy} (prec : Option ContractPrecision) (lhs : FVec Ideal ⟨2, ![a, c]⟩ φ₁)
    (rhs : FVec Ideal ⟨2, ![c, b]⟩ φ₂) (p : Fin a) (q : Fin b) :
    matmul (dims wf) prec lhs rhs (constant ⟨2, ![a, b]⟩ .f32 0x00000000#32) (ix2 p q)
      = ∑ k : Fin c, lhs (ix2 p k) * rhs (ix2 k q) :=
  (Ideal.matmul_constant_zero_apply (dims wf) prec lhs rhs (ix2 p q)).trans (sum_apply wf lhs rhs p q)

/-- The host's product, at the exact values, read at (p, q). -/
theorem dotGeneral_apply {φ₁ φ₂ : FTy} (prec : Option ContractPrecision) (lhs : FVec Ideal ⟨2, ![a, c]⟩ φ₁)
    (rhs : FVec Ideal ⟨2, ![c, b]⟩ φ₂) (p : Fin a) (q : Fin b) :
    Host.dotGeneral (dims wf) prec lhs rhs (ix2 p q) = ∑ k : Fin c, lhs (ix2 p k) * rhs (ix2 k q) :=
  (Ideal.dotGeneral_apply (dims wf) prec _ lhs rhs (ix2 p q)).trans (sum_apply wf lhs rhs p q)

end Cert.Lib.PlainDot

end
-- ==== Proof.LibRowBroadcasts.lean ====
/-
  Rows, columns and bias vectors broadcast, read at an index.

  The complements of the keepdims column forms: a `1 × b` row broadcast down `a` rows as a vector broadcast and as a
  dimension broadcast, an `a × 1` column broadcast across `c` columns as a dimension broadcast — each reads, at
  `(p, q)`, the operand at its one free coordinate — and the fact that a length-`b` vector cast to a `1 × b` row is the
  same array as that vector broadcast along dimension 1 (two spellings of "add a leading unit axis"). For any element
  type and any extents.
-/
import Idealize.ShloMosaic.Lib.Pipeline.Value
import Idealize.ShloMosaic.Lib.ValueIdx

noncomputable section

namespace Cert.Lib.Rows

open Idealize.ShloMosaic Idealize.ShloMosaic.ValueIdx

variable {a c b : Nat}

/-- A `1 × b` row broadcast down the rows reads, at `(p, q)`, the row at `q`. -/
theorem bcastRow_apply {α : Type} (v : (⟨2, ![1, b]⟩ : Shape).Idx → α)
    (h : (⟨2, ![1, b]⟩ : Shape).Broadcasts ⟨2, ![a, b]⟩) (p : Fin a) (q : Fin b) :
    broadcastTo ⟨2, ![a, b]⟩ v h (ix2 p q) = v (ix2 (0 : Fin 1) q) := by
  refine broadcastTo_apply v h (ix2 p q) (ix2 (0 : Fin 1) q) fun ax => ?_
  match ax with
  | ⟨0, _⟩ =>
    show (0 : Nat) = if (1 : Nat) = 1 then 0 else p.val
    rw [if_pos rfl]
  | ⟨1, _⟩ =>
    show q.val = if b = 1 then 0 else q.val
    split
    · have := q.isLt; omega
    · rfl

/-- An `a × 1` column broadcast in dimensions `[0, 1]` reads, at `(p, k)`, the column at `p`. -/
theorem dimCol_apply {α : Type} (v : (⟨2, ![a, 1]⟩ : Shape).Idx → α)
    (h : (⟨2, ![a, 1]⟩ : Shape).BroadcastsInDim ⟨2, ![a, c]⟩ ![0, 1]) (p : Fin a) (k : Fin c) :
    broadcastInDim ⟨2, ![a, c]⟩ ![0, 1] h v (ix2 p k) = v (ix2 p (0 : Fin 1)) := by
  refine broadcastInDim_apply _ h v (ix2 p k) (ix2 p (0 : Fin 1)) fun ax => ?_
  match ax with
  | ⟨0, _⟩ =>
    show p.val = if a = 1 then 0 else p.val
    split
    · have := p.isLt; omega
    · rfl
  | ⟨1, _⟩ =>
    show (0 : Nat) = if (1 : Nat) = 1 then 0 else k.val
    rw [if_pos rfl]

/-- A `1 × b` row broadcast in dimensions `[0, 1]` reads, at `(p, q)`, the row at `q`. -/
theorem dimRow_apply {α : Type} (v : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h v (ix2 p q) = v (ix2 (0 : Fin 1) q) := by
  refine broadcastInDim_apply _ h v (ix2 p q) (ix2 (0 : Fin 1) q) fun ax => ?_
  match ax with
  | ⟨0, _⟩ =>
    show (0 : Nat) = if (1 : Nat) = 1 then 0 else p.val
    rw [if_pos rfl]
  | ⟨1, _⟩ =>
    show q.val = if b = 1 then 0 else q.val
    split
    · have := q.isLt; omega
    · rfl

/-- A length-`b` vector cast to a `1 × b` row is the vector broadcast along dimension 1: both read, at `(·, q)`, the
    vector at `q`. -/
theorem castRow_eq_dimRow {α : Type} (v : (⟨1, ![b]⟩ : Shape).Idx → α)
    (hc : (⟨1, ![b]⟩ : Shape).ShapeCasts ⟨2, ![1, b]⟩)
    (hb : (⟨1, ![b]⟩ : Shape).BroadcastsInDim ⟨2, ![1, b]⟩ ![1]) :
    shapeCast ⟨2, ![1, b]⟩ v hc = broadcastInDim ⟨2, ![1, b]⟩ ![1] hb v := by
  funext j
  obtain ⟨u, q, rfl⟩ : ∃ (u : Fin 1) (q : Fin b), j = ix2 u q := ⟨j 0, j 1, eq_ix2 j⟩
  have hu : u.val = 0 := by omega
  have e1 : shapeCast ⟨2, ![1, b]⟩ v hc (ix2 u q) = v (ix1 q) :=
    shapeCast_apply v hc _ _ (by
      rw [Shape.rowMajor_val_two, Shape.rowMajor_val_one]
      show q.val = u.val * b + q.val
      rw [hu, Nat.zero_mul, Nat.zero_add])
  have e2 : broadcastInDim ⟨2, ![1, b]⟩ ![1] hb v (ix2 u q) = v (ix1 q) :=
    broadcastInDim_apply _ hb v (ix2 u q) (ix1 q) fun ax => by
      match ax with
      | ⟨0, _⟩ =>
        show q.val = if b = 1 then 0 else q.val
        split
        · have := q.isLt; omega
        · rfl
  rw [e1, e2]

end Cert.Lib.Rows

end
-- ==== Proof.KValue.lean ====
/-
  The kernel body's functions read at an index, on the extended reals.

  The side-by-side hidden buffer holds, at row r and column q, child q / 128 of node r at lane q % 128 (hcat_apply); the
  side-by-side weight buffer holds the forget weights in columns 0 to 1279 and the gate weights in columns 1280 to 1663
  (wcat_forget, wcat_gates). On the extended reals a change of number format is the identity, a cast to the same shape is
  the identity, a slice reads at its offsets plus the index and a row broadcast reads the row, so the product of the two
  buffers at column q < 1280 plus the forget bias is the forget gates' pre-activation, at column 1280 + o plus the gate
  bias the three gates' pre-activation, and the body's chain of ten products added left to right is the sum over the
  ten children. Hence the body's two results at (r, j) are the tree-LSTM cell's new memory and new hidden state of node r
  at lane j (bodyC_apply, bodyH_apply).
-/
import proofs.«159745_g52183852646691_cont_8to1_c_618_28_alg».proof.Proof.KBody
import proofs.«159745_g52183852646691_cont_8to1_c_618_28_alg».proof.Proof.Spec
import proofs.«159745_g52183852646691_cont_8to1_c_618_28_alg».proof.Proof.LibPlainDot
import proofs.«159745_g52183852646691_cont_8to1_c_618_28_alg».proof.Proof.LibRowBroadcasts
import Idealize.ShloMosaic.Lib.Pipeline.Value
import Idealize.ShloMosaic.Lib.ValueIdx
import Idealize.ShloMosaic.PureOps.Ideal.Laws

noncomputable section

namespace Cert.KernelIdeal.BodyValue

open Cert.KernelIdeal Cert.KernelIdeal.Gen Cert.KernelIdeal.Body Idealize.ShloMosaic Idealize.ShloMosaic.ValueIdx
open scoped BigOperators

/-- Column q of the forget part of the 1664-column product. -/
abbrev colF (q : Fin 1280) : Fin 1664 := ⟨q.val, by have := q.isLt; omega⟩
/-- Column o of the gate part of the 1664-column product. -/
abbrev colI (o : Fin 384) : Fin 1664 := ⟨1280 + o.val, by have := o.isLt; omega⟩

/-! ## A slab of a block of ten -/
/-- A slab of a block of ten, with its unit axis dropped, read at (r, j): the block at (k, r, j). -/
theorem slab_read (x : Vec Ideal S10x1000x128 .f32) (k : Fin 10)
    (inb : ∀ a, (![k.val, 0, 0] : Fin 3 → Nat) a + S1x1000x128.size a ≤ S10x1000x128.size a)
    (h : S1x1000x128.ShapeCasts S1000x128) (r : Fin 1000) (j : Fin 128) :
    shapeCast S1000x128 (View.ld x (Rect.unit ![k.val, 0, 0] S1x1000x128.size inb)) h (ix2 r j) = x (ix3 k r j) := by
  refine (shapeCast_dropUnit_apply ![1000, 128] _ h (ix2 r j)).trans ?_
  refine congrArg x (funext fun a => Fin.ext ?_)
  match a with
  | ⟨0, _⟩ => show k.val + 1 * 0 = k.val; omega
  | ⟨1, _⟩ => show 0 + 1 * r.val = r.val; omega
  | ⟨2, _⟩ => show 0 + 1 * j.val = j.val; omega

/-! ## The ten rounded slabs read at an index

Slab k, its unit axis dropped and rounded to the buffer's format, at (r, j) is the block at (k, r, j). -/

theorem pay4_read (x0 : Vec Ideal S10x1000x128 .f32) (r : Fin 1000) (j : Fin 128) :
    k0_pay4 (slab0 x0) (ix2 r j) = x0 (ix3 (0 : Fin 10) r j) := by
  unfold k0_pay4; rw [shapeCast_self]; exact slab_read x0 0 _ _ r j
theorem pay5_read (x0 : Vec Ideal S10x1000x128 .f32) (r : Fin 1000) (j : Fin 128) :
    k0_pay5 (slab1 x0) (ix2 r j) = x0 (ix3 (1 : Fin 10) r j) := by
  unfold k0_pay5; rw [shapeCast_self]; exact slab_read x0 1 _ _ r j
theorem pay6_read (x0 : Vec Ideal S10x1000x128 .f32) (r : Fin 1000) (j : Fin 128) :
    k0_pay6 (slab2 x0) (ix2 r j) = x0 (ix3 (2 : Fin 10) r j) := by
  unfold k0_pay6; rw [shapeCast_self]; exact slab_read x0 2 _ _ r j
theorem pay7_read (x0 : Vec Ideal S10x1000x128 .f32) (r : Fin 1000) (j : Fin 128) :
    k0_pay7 (slab3 x0) (ix2 r j) = x0 (ix3 (3 : Fin 10) r j) := by
  unfold k0_pay7; rw [shapeCast_self]; exact slab_read x0 3 _ _ r j
theorem pay9_read (x0 : Vec Ideal S10x1000x128 .f32) (r : Fin 1000) (j : Fin 128) :
    k0_pay9 (k0_pay8 (slab4 x0)) (ix2 r j) = x0 (ix3 (4 : Fin 10) r j) := by
  unfold k0_pay9 k0_pay8; rw [shapeCast_self]; exact slab_read x0 4 _ _ r j
theorem pay10_read (x0 : Vec Ideal S10x1000x128 .f32) (r : Fin 1000) (j : Fin 128) :
    k0_pay10 (slab5 x0) (ix2 r j) = x0 (ix3 (5 : Fin 10) r j) := by
  unfold k0_pay10; rw [shapeCast_self]; exact slab_read x0 5 _ _ r j
theorem pay11_read (x0 : Vec Ideal S10x1000x128 .f32) (r : Fin 1000) (j : Fin 128) :
    k0_pay11 (slab6 x0) (ix2 r j) = x0 (ix3 (6 : Fin 10) r j) := by
  unfold k0_pay11; rw [shapeCast_self]; exact slab_read x0 6 _ _ r j
theorem pay12_read (x0 : Vec Ideal S10x1000x128 .f32) (r : Fin 1000) (j : Fin 128) :
    k0_pay12 (slab7 x0) (ix2 r j) = x0 (ix3 (7 : Fin 10) r j) := by
  unfold k0_pay12; rw [shapeCast_self]; exact slab_read x0 7 _ _ r j
theorem pay13_read (x0 : Vec Ideal S10x1000x128 .f32) (r : Fin 1000) (j : Fin 128) :
    k0_pay13 (slab8 x0) (ix2 r j) = x0 (ix3 (8 : Fin 10) r j) := by
  unfold k0_pay13; rw [shapeCast_self]; exact slab_read x0 8 _ _ r j
theorem pay15_read (x0 : Vec Ideal S10x1000x128 .f32) (r : Fin 1000) (j : Fin 128) :
    k0_pay15 (k0_pay14 (slab9 x0)) (ix2 r j) = x0 (ix3 (9 : Fin 10) r j) := by
  unfold k0_pay15 k0_pay14; rw [shapeCast_self]; exact slab_read x0 9 _ _ r j

/-! ## The side-by-side buffer of hidden slabs -/

/-- What the side-by-side buffer holds at an index: child (column / 128) at lane (column % 128). -/
def hG (x0 : Vec Ideal S10x1000x128 .f32) : S1000x1280.Idx → Elt Ideal .bf16 := fun y =>
  x0 (ix3 (Cert.Spec.kid ⟨(y 1).val, idx2_lt1 y⟩) ⟨(y 0).val, idx2_lt0 y⟩ (Cert.Spec.lane ⟨(y 1).val, idx2_lt1 y⟩))

/-- Band k of the buffer (columns 128 k to 128 k + 127) holding slab k agrees with hG. -/
theorem band_piece (x0 : Vec Ideal S10x1000x128 .f32) (k : Fin 10) (c : Nat) (hc : c = k.val * 128)
    (inb : ∀ a, (![0, c] : Fin 2 → Nat) a + S1000x128.size a ≤ S1000x1280.size a)
    (v : Vec Ideal S1000x128 .bf16) (hv : ∀ (r : Fin 1000) (j : Fin 128), v (ix2 r j) = x0 (ix3 k r j))
    (x : (Rect.unit (s := S1000x1280) ![0, c] S1000x128.size inb).shape.Idx) :
    v x = hG x0 ((Rect.unit (s := S1000x1280) ![0, c] S1000x128.size inb).emb x) := by
  obtain ⟨r, j, rfl⟩ : ∃ (r : Fin 1000) (j : Fin 128), x = ix2 r j := ⟨x 0, x 1, eq_ix2 x⟩
  refine (hv r j).trans ?_
  unfold hG
  refine congrArg x0 (funext fun a => Fin.ext ?_)
  have hj := j.isLt
  have hk := k.isLt
  match a with
  | ⟨0, _⟩ => show k.val = (c + 1 * j.val) / 128; omega
  | ⟨1, _⟩ => show r.val = 0 + 1 * r.val; omega
  | ⟨2, _⟩ => show j.val = (c + 1 * j.val) % 128; omega

/-- An index whose column lies in the 128 columns from c on is in the band at column offset c. -/
theorem mem_band (c : Nat) (inb : ∀ a, (![0, c] : Fin 2 → Nat) a + S1000x128.size a ≤ S1000x1280.size a)
    (r : Fin 1000) (q : Fin 1280) (h1 : c ≤ q.val) (h2 : q.val < c + 128) :
    ix2 r q ∈ (Rect.unit (s := S1000x1280) ![0, c] S1000x128.size inb).set :=
  Rect.mem_set_unit.mpr fun a =>
    match a with
    | ⟨0, _⟩ => ⟨Nat.zero_le _, by show r.val < 0 + 1000; have := r.isLt; omega⟩
    | ⟨1, _⟩ => ⟨h1, h2⟩

/-- The hidden buffer at row r, column q: child q / 128 of node r at lane q % 128. -/
theorem hcat_apply (x0 : Vec Ideal S10x1000x128 .f32) (r : Fin 1000) (q : Fin 1280) :
    hcat x0 (ix2 r q) = x0 (ix3 (Cert.Spec.kid q) r (Cert.Spec.lane q)) := by
  unfold hcat
  refine View.canon_apply_of_pieces (hG x0) _ ?_ (ix2 r q) ?_
  · intro p hp
    simp only [List.mem_cons, List.mem_singleton, List.not_mem_nil, or_false] at hp
    rcases hp with rfl | rfl | rfl | rfl | rfl | rfl | rfl | rfl | rfl | rfl
    · exact band_piece x0 9 1152 rfl inb_S1000x1280_S1000x128_0_1152 (k0_pay15 (k0_pay14 (slab9 x0))) (pay15_read x0)
    · exact band_piece x0 8 1024 rfl inb_S1000x1280_S1000x128_0_1024 (k0_pay13 (slab8 x0)) (pay13_read x0)
    · exact band_piece x0 7 896 rfl inb_S1000x1280_S1000x128_0_896 (k0_pay12 (slab7 x0)) (pay12_read x0)
    · exact band_piece x0 6 768 rfl inb_S1000x1280_S1000x128_0_768 (k0_pay11 (slab6 x0)) (pay11_read x0)
    · exact band_piece x0 5 640 rfl inb_S1000x1280_S1000x128_0_640 (k0_pay10 (slab5 x0)) (pay10_read x0)
    · exact band_piece x0 4 512 rfl inb_S1000x1280_S1000x128_0_512 (k0_pay9 (k0_pay8 (slab4 x0))) (pay9_read x0)
    · exact band_piece x0 3 384 rfl inb_S1000x1280_S1000x128_0_384 (k0_pay7 (slab3 x0)) (pay7_read x0)
    · exact band_piece x0 2 256 rfl inb_S1000x1280_S1000x128_0_256 (k0_pay6 (slab2 x0)) (pay6_read x0)
    · exact band_piece x0 1 128 rfl inb_S1000x1280_S1000x128_0_128 (k0_pay5 (slab1 x0)) (pay5_read x0)
    · exact band_piece x0 0 0 rfl inb_S1000x1280_S1000x128_0_0 (k0_pay4 (slab0 x0)) (pay4_read x0)
  · have hq := q.isLt
    have hcase : q.val / 128 = 9 ∨ q.val / 128 = 8 ∨ q.val / 128 = 7 ∨ q.val / 128 = 6 ∨ q.val / 128 = 5 ∨ q.val / 128 = 4
        ∨ q.val / 128 = 3 ∨ q.val / 128 = 2 ∨ q.val / 128 = 1 ∨ q.val / 128 = 0 := by omega
    rcases hcase with h | h | h | h | h | h | h | h | h | h
    · exact ⟨_, (.head _), mem_band 1152 inb_S1000x1280_S1000x128_0_1152 r q (by omega) (by omega)⟩
    · exact ⟨_, (.tail _ (.head _)), mem_band 1024 inb_S1000x1280_S1000x128_0_1024 r q (by omega) (by omega)⟩
    · exact ⟨_, (.tail _ (.tail _ (.head _))), mem_band 896 inb_S1000x1280_S1000x128_0_896 r q (by omega) (by omega)⟩
    · exact ⟨_, (.tail _ (.tail _ (.tail _ (.head _)))), mem_band 768 inb_S1000x1280_S1000x128_0_768 r q (by omega) (by omega)⟩
    · exact ⟨_, (.tail _ (.tail _ (.tail _ (.tail _ (.head _))))), mem_band 640 inb_S1000x1280_S1000x128_0_640 r q (by omega) (by omega)⟩
    · exact ⟨_, (.tail _ (.tail _ (.tail _ (.tail _ (.tail _ (.head _)))))), mem_band 512 inb_S1000x1280_S1000x128_0_512 r q (by omega) (by omega)⟩
    · exact ⟨_, (.tail _ (.tail _ (.tail _ (.tail _ (.tail _ (.tail _ (.head _))))))), mem_band 384 inb_S1000x1280_S1000x128_0_384 r q (by omega) (by omega)⟩
    · exact ⟨_, (.tail _ (.tail _ (.tail _ (.tail _ (.tail _ (.tail _ (.tail _ (.head _)))))))), mem_band 256 inb_S1000x1280_S1000x128_0_256 r q (by omega) (by omega)⟩
    · exact ⟨_, (.tail _ (.tail _ (.tail _ (.tail _ (.tail _ (.tail _ (.tail _ (.tail _ (.head _))))))))), mem_band 128 inb_S1000x1280_S1000x128_0_128 r q (by omega) (by omega)⟩
    · exact ⟨_, (.tail _ (.tail _ (.tail _ (.tail _ (.tail _ (.tail _ (.tail _ (.tail _ (.tail _ (.head _)))))))))), mem_band 0 inb_S1000x1280_S1000x128_0_0 r q (by omega) (by omega)⟩

/-! ## The side-by-side weight buffer -/

/-- What the side-by-side weight buffer holds at an index: the forget weights left of column 1280, the gate weights
    from column 1280 on. -/
def wG (x2 : Vec Ideal S1280x1280 .f32) (x4 : Vec Ideal S1280x384 .f32) : S1280x1664.Idx → Elt Ideal .bf16 := fun y =>
  if h : (y 1).val < 1280 then x2 (ix2 (⟨(y 0).val, idx2_lt0 y⟩ : Fin 1280) (⟨(y 1).val, h⟩ : Fin 1280))
  else x4 (ix2 (⟨(y 0).val, idx2_lt0 y⟩ : Fin 1280) (⟨(y 1).val - 1280, by have := idx2_lt1 y; omega⟩ : Fin 384))

/-- The rounded forget weights are the forget weights. -/
theorem pay2_read (x2 : Vec Ideal S1280x1280 .f32) (i : S1280x1280.Idx) : k0_pay2 x2 i = x2 i := by
  unfold k0_pay2; rw [shapeCast_self]; rfl

/-- The rounded gate weights are the gate weights. -/
theorem pay3_read (x4 : Vec Ideal S1280x384 .f32) (i : S1280x384.Idx) : k0_pay3 x4 i = x4 i := by
  unfold k0_pay3; rw [shapeCast_self, shapeCast_self]; rfl

/-- The forget piece (columns 0 to 1279) agrees with wG. -/
theorem forget_piece (x2 : Vec Ideal S1280x1280 .f32) (x4 : Vec Ideal S1280x384 .f32)
    (x : (Rect.unit (s := S1280x1664) ![0, 0] S1280x1280.size inb_S1280x1664_S1280x1280_0_0).shape.Idx) :
    k0_pay2 x2 x = wG x2 x4 ((Rect.unit (s := S1280x1664) ![0, 0] S1280x1280.size inb_S1280x1664_S1280x1280_0_0).emb x) := by
  obtain ⟨k, q, rfl⟩ : ∃ (k : Fin 1280) (q : Fin 1280), x = ix2 k q := ⟨x 0, x 1, eq_ix2 x⟩
  refine (pay2_read x2 (ix2 k q)).trans ?_
  have hq := q.isLt
  unfold wG
  split
  next h =>
    refine congrArg x2 (funext fun a => Fin.ext ?_)
    match a with
    | ⟨0, _⟩ => show k.val = 0 + 1 * k.val; omega
    | ⟨1, _⟩ => show q.val = 0 + 1 * q.val; omega
  next h => exact absurd (show 0 + 1 * q.val < 1280 by omega) h

/-- The gate piece (columns 1280 to 1663) agrees with wG. -/
theorem gates_piece (x2 : Vec Ideal S1280x1280 .f32) (x4 : Vec Ideal S1280x384 .f32)
    (x : (Rect.unit (s := S1280x1664) ![0, 1280] S1280x384.size inb_S1280x1664_S1280x384_0_1280).shape.Idx) :
    k0_pay3 x4 x = wG x2 x4 ((Rect.unit (s := S1280x1664) ![0, 1280] S1280x384.size inb_S1280x1664_S1280x384_0_1280).emb x) := by
  obtain ⟨k, o, rfl⟩ : ∃ (k : Fin 1280) (o : Fin 384), x = ix2 k o := ⟨x 0, x 1, eq_ix2 x⟩
  refine (pay3_read x4 (ix2 k o)).trans ?_
  have ho := o.isLt
  unfold wG
  split
  next h => exact absurd (show 1280 + 1 * o.val < 1280 from h) (by omega)
  next h =>
    refine congrArg x4 (funext fun a => Fin.ext ?_)
    match a with
    | ⟨0, _⟩ => show k.val = 0 + 1 * k.val; omega
    | ⟨1, _⟩ => show o.val = 1280 + 1 * o.val - 1280; omega

/-- An index left of column 1280 is in the forget piece. -/
theorem mem_forget (k : Fin 1280) (c : Fin 1664) (h : c.val < 1280) :
    ix2 k c ∈ (Rect.unit (s := S1280x1664) ![0, 0] S1280x1280.size inb_S1280x1664_S1280x1280_0_0).set :=
  Rect.mem_set_unit.mpr fun a =>
    match a with
    | ⟨0, _⟩ => ⟨Nat.zero_le _, by show k.val < 0 + 1280; have := k.isLt; omega⟩
    | ⟨1, _⟩ => ⟨Nat.zero_le _, by show c.val < 0 + 1280; omega⟩

/-- An index from column 1280 on is in the gate piece. -/
theorem mem_gates (k : Fin 1280) (c : Fin 1664) (h : ¬ c.val < 1280) :
    ix2 k c ∈ (Rect.unit (s := S1280x1664) ![0, 1280] S1280x384.size inb_S1280x1664_S1280x384_0_1280).set :=
  Rect.mem_set_unit.mpr fun a =>
    match a with
    | ⟨0, _⟩ => ⟨Nat.zero_le _, by show k.val < 0 + 1280; have := k.isLt; omega⟩
    | ⟨1, _⟩ => ⟨by show 1280 ≤ c.val; omega, by show c.val < 1280 + 384; have := c.isLt; omega⟩

/-- The weight buffer read at any index. -/
theorem wcat_read (x2 : Vec Ideal S1280x1280 .f32) (x4 : Vec Ideal S1280x384 .f32) (k : Fin 1280) (c : Fin 1664) :
    wcat x2 x4 (ix2 k c) = wG x2 x4 (ix2 k c) := by
  unfold wcat
  refine View.canon_apply_of_pieces (wG x2 x4) _ ?_ (ix2 k c) ?_
  · intro p hp
    simp only [List.mem_cons, List.mem_singleton, List.not_mem_nil, or_false] at hp
    rcases hp with rfl | rfl
    · exact gates_piece x2 x4
    · exact forget_piece x2 x4
  · by_cases h : c.val < 1280
    · exact ⟨_, .tail _ (.head _), mem_forget k c h⟩
    · exact ⟨_, .head _, mem_gates k c h⟩

/-- Column q < 1280 of the weight buffer is column q of the forget weights. -/
theorem wcat_forget (x2 : Vec Ideal S1280x1280 .f32) (x4 : Vec Ideal S1280x384 .f32) (k : Fin 1280) (q : Fin 1280) :
    wcat x2 x4 (ix2 k (colF q)) = x2 (ix2 k q) := by
  refine (wcat_read x2 x4 k (colF q)).trans ?_
  unfold wG
  exact dif_pos q.isLt

/-- Column 1280 + o of the weight buffer is column o of the gate weights. -/
theorem wcat_gates (x2 : Vec Ideal S1280x1280 .f32) (x4 : Vec Ideal S1280x384 .f32) (k : Fin 1280) (o : Fin 384) :
    wcat x2 x4 (ix2 k (colI o)) = x4 (ix2 k o) := by
  refine (wcat_read x2 x4 k (colI o)).trans ?_
  unfold wG
  have ho := o.isLt
  refine (dif_neg (show ¬ (1280 + o.val < 1280) by omega)).trans ?_
  refine congrArg x4 (funext fun a => Fin.ext ?_)
  match a with
  | ⟨0, _⟩ => rfl
  | ⟨1, _⟩ => show 1280 + o.val - 1280 = o.val; omega

/-! ## The product, the gates and the cell read at an index -/

/-- The 1000 x 1280 by 1280 x 1664 product into a zero accumulator, at (r, c). -/
theorem pay16_read (A : Vec Ideal S1000x1280 .bf16) (W : Vec Ideal S1280x1664 .bf16) (r : Fin 1000) (c : Fin 1664) :
    k0_pay16 A W (ix2 r c) = ∑ k : Fin 1280, A (ix2 r k) * W (ix2 k c) := by
  unfold k0_pay16
  exact Cert.Lib.PlainDot.matmul_zero_apply dot_S1000x1280_S1280x1664_S1000x1664_1_0_0_1_n_n_wf none A W r c

/-- A unit-stride slice of a matrix at (r, j): the matrix at the offsets plus (r, j). -/
theorem slice2_read {α : Type} {m n m' n' : Nat} (o0 o1 : Nat) (x : (⟨2, ![m, n]⟩ : Shape).Idx → α)
    (h : (⟨2, ![m, n]⟩ : Shape).Slices ![o0, o1] ⟨2, ![m', n']⟩) (r : Fin m') (j : Fin n') (r' : Fin m) (j' : Fin n)
    (hr : r'.val = o0 + r.val) (hj : j'.val = o1 + j.val) :
    extractStridedSlice ⟨2, ![m', n']⟩ ![o0, o1] x h (ix2 r j) = x (ix2 r' j') :=
  extractStridedSlice_apply _ x h (ix2 r j) (ix2 r' j') fun a =>
    match a with
    | ⟨0, _⟩ => hr
    | ⟨1, _⟩ => hj

/-- The forget gates, one operation at a time. -/
theorem pay17_unfold (v63 : Vec Ideal S1000x1280 .bf16) (v64 : Vec Ideal S1280x1664 .bf16) (v67 : Vec Ideal S1x1280 .f32)
    (i : S1000x1280.Idx) :
    k0_pay17 v63 v64 v67 i
      = Ideal.logistic (extractStridedSlice S1000x1280 ![0, 0] (k0_pay16 v63 v64) slices_S1000x1664_o0_0_S1000x1280 i
          + broadcastTo S1000x1280 (shapeCast S1x1280 v67 shapeCasts_S1x1280_S1x1280) broadcasts_S1x1280_S1000x1280 i) := rfl

/-- The three gates' pre-activations, one operation at a time. -/
theorem pay21_unfold (v63 : Vec Ideal S1000x1280 .bf16) (v64 : Vec Ideal S1280x1664 .bf16) (v122 : Vec Ideal S1x384 .f32)
    (i : S1000x384.Idx) :
    k0_pay21 (k0_pay18 v63 v64) v122 i
      = extractStridedSlice S1000x384 ![0, 1280] (k0_pay16 v63 v64) slices_S1000x1664_o0_1280_S1000x384 i
          + broadcastTo S1000x384 v122 broadcasts_S1x384_S1000x384 i := rfl

section Cell

variable (x0 x1 : Vec Ideal S10x1000x128 .f32) (W : Vec Ideal S1280x1664 .bf16) (x3 : Vec Ideal S1x1280 .f32)
  (x5 : Vec Ideal S1x384 .f32) (r : Fin 1000)

/-- The forget weights inside the side-by-side weights. -/
abbrev wfOf : Fin 1280 → Fin 1280 → EReal := fun k q => W (ix2 k (colF q))
/-- The forget bias. -/
abbrev bfOf : Fin 1280 → EReal := fun q => x3 (ix2 (0 : Fin 1) q)
/-- The gate weights inside the side-by-side weights. -/
abbrev wiOf : Fin 1280 → Fin 384 → EReal := fun k o => W (ix2 k (colI o))
/-- The gate bias. -/
abbrev biOf : Fin 384 → EReal := fun o => x5 (ix2 (0 : Fin 1) o)
/-- Node r's flattened hidden row. -/
abbrev rowOf : Fin 1280 → EReal := fun q => x0 (ix3 (Cert.Spec.kid q) r (Cert.Spec.lane q))
/-- Node r's children's memories. -/
abbrev memOf : Fin 10 → Fin 128 → EReal := fun k j => x1 (ix3 k r j)

/-- The forget gates at (r, q). -/
theorem pay17_read (q : Fin 1280) :
    k0_pay17 (hcat x0) W x3 (ix2 r q) = Ideal.logistic (Cert.Spec.fpre (wfOf W) (bfOf x3) (rowOf x0 r) q) := by
  refine (pay17_unfold (hcat x0) W x3 (ix2 r q)).trans ?_
  unfold Cert.Spec.fpre
  refine congrArg Ideal.logistic (congrArg₂ (· + ·) ?_ ?_)
  · refine (slice2_read 0 0 _ _ r q r (colF q) (by omega) (by show q.val = 0 + q.val; omega)).trans ?_
    refine (pay16_read (hcat x0) W r (colF q)).trans ?_
    exact Finset.sum_congr rfl fun k _ => congrArg (· * W (ix2 k (colF q))) (hcat_apply x0 r k)
  · rw [shapeCast_self]
    exact Cert.Lib.Rows.bcastRow_apply x3 _ r q

/-- The three gates' pre-activations at (r, o). -/
theorem pay21_read (o : Fin 384) :
    k0_pay21 (k0_pay18 (hcat x0) W) x5 (ix2 r o) = Cert.Spec.iou (wiOf W) (biOf x5) (rowOf x0 r) o := by
  refine (pay21_unfold (hcat x0) W x5 (ix2 r o)).trans ?_
  unfold Cert.Spec.iou
  refine congrArg₂ (· + ·) ?_ ?_
  · refine (slice2_read 0 1280 _ _ r o r (colI o) (by omega) rfl).trans ?_
    refine (pay16_read (hcat x0) W r (colI o)).trans ?_
    exact Finset.sum_congr rfl fun k _ => congrArg (· * W (ix2 k (colI o))) (hcat_apply x0 r k)
  · exact Cert.Lib.Rows.bcastRow_apply x5 _ r o

/-- Child k's term of the reduced memory at (r, j): its forget gate times its memory. -/
theorem term_read (j : Fin 128) (k : Fin 10) (off : Nat) (hoff : off = k.val * 128)
    (hs : S1000x1280.Slices ![0, off] S1000x128)
    (inb : ∀ a, (![k.val, 0, 0] : Fin 3 → Nat) a + S1x1000x128.size a ≤ S10x1000x128.size a)
    (hc : S1x1000x128.ShapeCasts S1000x128) :
    extractStridedSlice S1000x128 ![0, off] (k0_pay17 (hcat x0) W x3) hs (ix2 r j)
        * shapeCast S1000x128 (View.ld x1 (Rect.unit ![k.val, 0, 0] S1x1000x128.size inb)) hc (ix2 r j)
      = Ideal.logistic (Cert.Spec.fpre (wfOf W) (bfOf x3) (rowOf x0 r) (Cert.Spec.col k j)) * memOf x1 r k j := by
  refine congrArg₂ (· * ·) ?_ (slab_read x1 k inb hc r j)
  refine (slice2_read 0 off _ hs r j r (Cert.Spec.col k j) (by omega) (by show k.val * 128 + j.val = off + j.val; omega)).trans ?_
  exact pay17_read x0 W x3 r (Cert.Spec.col k j)

/-- The first four terms, added left to right. -/
theorem pay19_read (v63 : Vec Ideal S1000x1280 .bf16) (v64 : Vec Ideal S1280x1664 .bf16) (v67 : Vec Ideal S1x1280 .f32)
    (v74 v78 v83 v88 : Vec Ideal S1x1000x128 .f32) (i : S1000x128.Idx) :
    k0_pay19 v63 v64 v67 v74 v78 v83 v88 i
      = extractStridedSlice S1000x128 ![0, 0] (k0_pay17 v63 v64 v67) slices_S1000x1280_o0_0_S1000x128 i
            * shapeCast S1000x128 v74 shapeCasts_S1x1000x128_S1000x128 i
          + extractStridedSlice S1000x128 ![0, 128] (k0_pay17 v63 v64 v67) slices_S1000x1280_o0_128_S1000x128 i
            * shapeCast S1000x128 v78 shapeCasts_S1x1000x128_S1000x128 i
          + extractStridedSlice S1000x128 ![0, 256] (k0_pay17 v63 v64 v67) slices_S1000x1280_o0_256_S1000x128 i
            * shapeCast S1000x128 v83 shapeCasts_S1x1000x128_S1000x128 i
          + extractStridedSlice S1000x128 ![0, 384] (k0_pay17 v63 v64 v67) slices_S1000x1280_o0_384_S1000x128 i
            * shapeCast S1000x128 v88 shapeCasts_S1x1000x128_S1000x128 i := rfl

/-- The new memory: the input gate times the update, plus the earlier terms and the last six, added left to right. -/
theorem pay23_read (v71 : FVec Ideal S1000x1280 .f32) (v72 : FVec Ideal S1000x384 .f32) (v91 v92 : FVec Ideal S1000x128 .f32)
    (v93 v98 v103 v108 v113 v118 : Vec Ideal S1x1000x128 .f32) (v122 : Vec Ideal S1x384 .f32) (i : S1000x128.Idx) :
    k0_pay23 v71 v72 v91 v92 v93 v98 v103 v108 v113 v118 v122 i
      = Ideal.logistic (extractStridedSlice S1000x128 ![0, 0] (k0_pay21 v72 v122) slices_S1000x384_o0_0_S1000x128 i)
          * Ideal.tanh (extractStridedSlice S1000x128 ![0, 256] (k0_pay21 v72 v122) slices_S1000x384_o0_256_S1000x128 i)
        + (v91 i
          + v92 i * shapeCast S1000x128 v93 shapeCasts_S1x1000x128_S1000x128 i
          + extractStridedSlice S1000x128 ![0, 640] v71 slices_S1000x1280_o0_640_S1000x128 i
            * shapeCast S1000x128 v98 shapeCasts_S1x1000x128_S1000x128 i
          + extractStridedSlice S1000x128 ![0, 768] v71 slices_S1000x1280_o0_768_S1000x128 i
            * shapeCast S1000x128 v103 shapeCasts_S1x1000x128_S1000x128 i
          + extractStridedSlice S1000x128 ![0, 896] v71 slices_S1000x1280_o0_896_S1000x128 i
            * shapeCast S1000x128 v108 shapeCasts_S1x1000x128_S1000x128 i
          + extractStridedSlice S1000x128 ![0, 1024] v71 slices_S1000x1280_o0_1024_S1000x128 i
            * shapeCast S1000x128 v113 shapeCasts_S1x1000x128_S1000x128 i
          + extractStridedSlice S1000x128 ![0, 1152] v71 slices_S1000x1280_o0_1152_S1000x128 i
            * shapeCast S1000x128 v118 shapeCasts_S1x1000x128_S1000x128 i) := rfl

end Cell

/-- The output gate's factor and the new hidden state, one operation at a time. -/
theorem pay1_unfold (v128 v132 : FVec Ideal S1000x128 .f32) (i : S1000x128.Idx) :
    k0_pay1 v128 v132 i = v128 i * Ideal.tanh (v132 i) := rfl

/-- The output gate, one operation at a time. -/
theorem pay22_unfold (v72 : FVec Ideal S1000x384 .f32) (v122 : Vec Ideal S1x384 .f32) (i : S1000x128.Idx) :
    k0_pay22 v72 v122 i
      = Ideal.logistic (extractStridedSlice S1000x128 ![0, 128] (k0_pay21 v72 v122) slices_S1000x384_o0_128_S1000x128 i) := rfl

section CellRead

variable (x0 x1 : Vec Ideal S10x1000x128 .f32) (W : Vec Ideal S1280x1664 .bf16) (x3 : Vec Ideal S1x1280 .f32)
  (x5 : Vec Ideal S1x384 .f32) (r : Fin 1000) (j : Fin 128)

/-- The new memory at (r, j) is the cell's: the ten terms added left to right are their sum. -/
theorem bodyC_read :
    bodyC x0 x1 W x3 x5 (ix2 r j)
      = Cert.Spec.cCell (wfOf W) (bfOf x3) (wiOf W) (biOf x5) (rowOf x0 r) (memOf x1 r) j := by
  unfold bodyC
  refine (pay23_read _ _ _ _ _ _ _ _ _ _ _ (ix2 r j)).trans ?_
  unfold Cert.Spec.cCell Cert.Spec.cred
  refine congrArg₂ (· + ·) (congrArg₂ (· * ·) (congrArg Ideal.logistic ?_) (congrArg Ideal.tanh ?_)) ?_
  · refine (slice2_read 0 0 _ _ r j r (Cert.Spec.gi j) (by omega) (by show j.val = 0 + j.val; omega)).trans ?_
    exact pay21_read x0 W x5 r (Cert.Spec.gi j)
  · refine (slice2_read 0 256 _ _ r j r (Cert.Spec.gu j) (by omega) rfl).trans ?_
    exact pay21_read x0 W x5 r (Cert.Spec.gu j)
  · refine Eq.trans ?_ (Cert.Spec.chain10 fun k =>
      Ideal.logistic (Cert.Spec.fpre (wfOf W) (bfOf x3) (rowOf x0 r) (Cert.Spec.col k j)) * memOf x1 r k j)
    refine congrArg₂ (· + ·) (congrArg₂ (· + ·) (congrArg₂ (· + ·) (congrArg₂ (· + ·) (congrArg₂ (· + ·)
      (congrArg₂ (· + ·) ?_ ?_) ?_) ?_) ?_) ?_) ?_
    · refine (pay19_read _ _ _ _ _ _ _ (ix2 r j)).trans ?_
      exact congrArg₂ (· + ·) (congrArg₂ (· + ·) (congrArg₂ (· + ·) (term_read x0 x1 W x3 r j 0 0 rfl slices_S1000x1280_o0_0_S1000x128
        inb_S10x1000x128_S1x1000x128_0_0_0 shapeCasts_S1x1000x128_S1000x128) (term_read x0 x1 W x3 r j 1 128 rfl slices_S1000x1280_o0_128_S1000x128
        inb_S10x1000x128_S1x1000x128_1_0_0 shapeCasts_S1x1000x128_S1000x128))
        (term_read x0 x1 W x3 r j 2 256 rfl slices_S1000x1280_o0_256_S1000x128
        inb_S10x1000x128_S1x1000x128_2_0_0 shapeCasts_S1x1000x128_S1000x128)) (term_read x0 x1 W x3 r j 3 384 rfl slices_S1000x1280_o0_384_S1000x128
        inb_S10x1000x128_S1x1000x128_3_0_0 shapeCasts_S1x1000x128_S1000x128)
    · exact (term_read x0 x1 W x3 r j 4 512 rfl slices_S1000x1280_o0_512_S1000x128
        inb_S10x1000x128_S1x1000x128_4_0_0 shapeCasts_S1x1000x128_S1000x128)
    · exact (term_read x0 x1 W x3 r j 5 640 rfl slices_S1000x1280_o0_640_S1000x128
        inb_S10x1000x128_S1x1000x128_5_0_0 shapeCasts_S1x1000x128_S1000x128)
    · exact (term_read x0 x1 W x3 r j 6 768 rfl slices_S1000x1280_o0_768_S1000x128
        inb_S10x1000x128_S1x1000x128_6_0_0 shapeCasts_S1x1000x128_S1000x128)
    · exact (term_read x0 x1 W x3 r j 7 896 rfl slices_S1000x1280_o0_896_S1000x128
        inb_S10x1000x128_S1x1000x128_7_0_0 shapeCasts_S1x1000x128_S1000x128)
    · exact (term_read x0 x1 W x3 r j 8 1024 rfl slices_S1000x1280_o0_1024_S1000x128
        inb_S10x1000x128_S1x1000x128_8_0_0 shapeCasts_S1x1000x128_S1000x128)
    · exact (term_read x0 x1 W x3 r j 9 1152 rfl slices_S1000x1280_o0_1152_S1000x128
        inb_S10x1000x128_S1x1000x128_9_0_0 shapeCasts_S1x1000x128_S1000x128)

/-- The new hidden state at (r, j) is the cell's. -/
theorem bodyH_read :
    bodyH x0 x1 W x3 x5 (ix2 r j)
      = Cert.Spec.hCell (wfOf W) (bfOf x3) (wiOf W) (biOf x5) (rowOf x0 r) (memOf x1 r) j := by
  unfold bodyH
  refine (pay1_unfold _ _ (ix2 r j)).trans ?_
  unfold Cert.Spec.hCell
  refine congrArg₂ (· * ·) ?_ (congrArg Ideal.tanh (bodyC_read x0 x1 W x3 x5 r j))
  refine (pay22_unfold _ _ (ix2 r j)).trans (congrArg Ideal.logistic ?_)
  refine (slice2_read 0 128 _ _ r j r (Cert.Spec.go j) (by omega) rfl).trans ?_
  exact pay21_read x0 W x5 r (Cert.Spec.go j)

end CellRead

/-- The body's new memory at (r, j) is the cell's new memory of node r at lane j. -/
theorem bodyC_apply (x0 x1 : Vec Ideal S10x1000x128 .f32) (W : Vec Ideal S1280x1664 .bf16) (x3 : Vec Ideal S1x1280 .f32)
    (x5 : Vec Ideal S1x384 .f32) (r : Fin 1000) (j : Fin 128) :
    bodyC x0 x1 W x3 x5 (ix2 r j)
      = Cert.Spec.cCell (fun k q => W (ix2 k (colF q))) (fun q => x3 (ix2 (0 : Fin 1) q)) (fun k o => W (ix2 k (colI o)))
          (fun o => x5 (ix2 (0 : Fin 1) o))
          (fun q => x0 (ix3 (Cert.Spec.kid q) r (Cert.Spec.lane q))) (fun k j => x1 (ix3 k r j)) j :=
  bodyC_read x0 x1 W x3 x5 r j

/-- The body's new hidden state at (r, j) is the cell's new hidden state of node r at lane j. -/
theorem bodyH_apply (x0 x1 : Vec Ideal S10x1000x128 .f32) (W : Vec Ideal S1280x1664 .bf16) (x3 : Vec Ideal S1x1280 .f32)
    (x5 : Vec Ideal S1x384 .f32) (r : Fin 1000) (j : Fin 128) :
    bodyH x0 x1 W x3 x5 (ix2 r j)
      = Cert.Spec.hCell (fun k q => W (ix2 k (colF q))) (fun q => x3 (ix2 (0 : Fin 1) q)) (fun k o => W (ix2 k (colI o)))
          (fun o => x5 (ix2 (0 : Fin 1) o))
          (fun q => x0 (ix3 (Cert.Spec.kid q) r (Cert.Spec.lane q))) (fun k j => x1 (ix3 k r j)) j :=
  bodyH_read x0 x1 W x3 x5 r j

end Cert.KernelIdeal.BodyValue
end
-- ==== Proof.KFinal.lean ====
/-
  The kernel's two result arrays are the specification's two arrays, at the exact float model.

  At a grid step t and a row r of its block, the body's new memory at lane j is the specification's new memory of node
  1000 t + r: the body reads the hidden row of that node laid flat, the node's children's memories, and — through the
  weight buffer the first step filled — the forget weights as stored and the gate weights transposed, which is how the
  specification reads them. So what step t writes back is rows 1000 t to 1000 t + 999 of the specification's array,
  and the ten steps' row blocks fill the array.
-/
import proofs.«159745_g52183852646691_cont_8to1_c_618_28_alg».proof.Proof.Gen.KernelIdeal.Value
import proofs.«159745_g52183852646691_cont_8to1_c_618_28_alg».proof.Proof.KSteps
import proofs.«159745_g52183852646691_cont_8to1_c_618_28_alg».proof.Proof.KBlocks
import proofs.«159745_g52183852646691_cont_8to1_c_618_28_alg».proof.Proof.KValue
import proofs.«159745_g52183852646691_cont_8to1_c_618_28_alg».proof.Proof.Spec

set_option maxRecDepth 16384

noncomputable section

namespace Cert.KernelIdeal.Final

open Cert.KernelIdeal Cert.KernelIdeal.Gen Cert.KernelIdeal.Body Cert.KernelIdeal.BodyValue Cert.KernelIdeal.Blocks
  Idealize.ShloMosaic Idealize.ShloMosaic.TcCoe Idealize.SL.Sem Idealize.ShloMosaic.ValueIdx
open Idealize.ShloMosaic.Pipeline (Dat)

/-- The grid has a first step. -/
theorem hN0 : 0 < cfg0.N := by rw [show cfg0.N = 10 from N_0]; decide

/-! ## One row of one block, over plain arrays -/

section Cell

variable (x0 x1 : Vec Ideal S10x1000x128 .f32) (y2 : Vec Ideal S1280x1280 .f32) (y4 : Vec Ideal S1280x384 .f32)
  (x3 : Vec Ideal S1x1280 .f32) (x5 : Vec Ideal S1x384 .f32)
  (A0 A1 : FVec Ideal Cert.Spec.SMail .f32) (A2 : FVec Ideal Cert.Spec.SWf .f32) (A3 : FVec Ideal Cert.Spec.SBf .f32)
  (A4 : FVec Ideal Cert.Spec.SWi .f32) (A5 : FVec Ideal Cert.Spec.SBi .f32) (n : Fin 10000) (r : Fin 1000)

/-- If row r of the blocks holds node n's data, and the weight blocks hold the weights (the gate weights transposed),
    the body's new memory at (r, j) is the specification's new memory of node n at lane j. -/
theorem cellC (h0 : ∀ k j, x0 (ix3 k r j) = A0 (ix3 n k j)) (h1 : ∀ k j, x1 (ix3 k r j) = A1 (ix3 n k j))
    (h2 : ∀ k q, y2 (ix2 k q) = A2 (ix2 k q)) (h3 : ∀ q, x3 (ix2 (0 : Fin 1) q) = A3 (ix1 q))
    (h4 : ∀ k o, y4 (ix2 k o) = A4 (ix2 o k)) (h5 : ∀ o, x5 (ix2 (0 : Fin 1) o) = A5 (ix2 (0 : Fin 1) o))
    (j : Fin 128) : bodyC x0 x1 (wcat y2 y4) x3 x5 (ix2 r j) = Cert.Spec.cAt A0 A1 A2 A3 A4 A5 n j := by
  rw [bodyC_apply]
  unfold Cert.Spec.cAt
  simp only [wcat_forget, wcat_gates, h0, h1, h2, h3, h4, h5]

/-- Likewise the body's new hidden state at (r, j) is the specification's. -/
theorem cellH (h0 : ∀ k j, x0 (ix3 k r j) = A0 (ix3 n k j)) (h1 : ∀ k j, x1 (ix3 k r j) = A1 (ix3 n k j))
    (h2 : ∀ k q, y2 (ix2 k q) = A2 (ix2 k q)) (h3 : ∀ q, x3 (ix2 (0 : Fin 1) q) = A3 (ix1 q))
    (h4 : ∀ k o, y4 (ix2 k o) = A4 (ix2 o k)) (h5 : ∀ o, x5 (ix2 (0 : Fin 1) o) = A5 (ix2 (0 : Fin 1) o))
    (j : Fin 128) : bodyH x0 x1 (wcat y2 y4) x3 x5 (ix2 r j) = Cert.Spec.hAt A0 A1 A2 A3 A4 A5 n j := by
  rw [bodyH_apply]
  unfold Cert.Spec.hAt
  simp only [wcat_forget, wcat_gates, h0, h1, h2, h3, h4, h5]

end Cell

/-! ## One row of one grid step's block -/

variable (m : (ℓ : Loc nD τ sig) → Buf (Elt Ideal) ℓ) (ρ : Dev nD → PrngReg)

/-- The specification's new memories of the launch arguments. -/
abbrev specC (c : Dev nD) : FVec Ideal Cert.Spec.SOut .f32 := Cert.Spec.C (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
/-- The specification's new hidden states of the launch arguments. -/
abbrev specH (c : Dev nD) : FVec Ideal Cert.Spec.SOut .f32 := Cert.Spec.H (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))

theorem pointC (c : Dev nD) (n : ℕ) (hn : n < cfg0.N) (r : Fin 1000) (j : Fin 128) :
    bodyC (iblk m c 0 ⟨n, hn⟩) (iblk m c 1 ⟨n, hn⟩) (Steps.wts m c hN0) (iblk m c 3 ⟨n, hn⟩) (iblk m c 5 ⟨n, hn⟩) (ix2 r j)
      = Cert.Spec.cAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (node ⟨n, hn⟩ r) j :=
  cellC (iblk m c 0 ⟨n, hn⟩) (iblk m c 1 ⟨n, hn⟩) (iblk m c 2 ⟨0, hN0⟩) (iblk m c 4 ⟨0, hN0⟩) (iblk m c 3 ⟨n, hn⟩) (iblk m c 5 ⟨n, hn⟩)
    (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (node ⟨n, hn⟩ r) r
    (fun k j => blk0 m c ⟨n, hn⟩ k r j) (fun k j => blk1 m c ⟨n, hn⟩ k r j) (fun k q => blk2 m c ⟨0, hN0⟩ k q)
    (fun q => blk3 m c ⟨n, hn⟩ q) (fun k o => blk4 m c ⟨0, hN0⟩ k o) (fun o => blk5 m c ⟨n, hn⟩ o) j

theorem pointH (c : Dev nD) (n : ℕ) (hn : n < cfg0.N) (r : Fin 1000) (j : Fin 128) :
    bodyH (iblk m c 0 ⟨n, hn⟩) (iblk m c 1 ⟨n, hn⟩) (Steps.wts m c hN0) (iblk m c 3 ⟨n, hn⟩) (iblk m c 5 ⟨n, hn⟩) (ix2 r j)
      = Cert.Spec.hAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (node ⟨n, hn⟩ r) j :=
  cellH (iblk m c 0 ⟨n, hn⟩) (iblk m c 1 ⟨n, hn⟩) (iblk m c 2 ⟨0, hN0⟩) (iblk m c 4 ⟨0, hN0⟩) (iblk m c 3 ⟨n, hn⟩) (iblk m c 5 ⟨n, hn⟩)
    (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (node ⟨n, hn⟩ r) r
    (fun k j => blk0 m c ⟨n, hn⟩ k r j) (fun k j => blk1 m c ⟨n, hn⟩ k r j) (fun k q => blk2 m c ⟨0, hN0⟩ k q)
    (fun q => blk3 m c ⟨n, hn⟩ q) (fun k o => blk4 m c ⟨0, hN0⟩ k o) (fun o => blk5 m c ⟨n, hn⟩ o) j

/-! ## What each step writes back, and the arrays after the run -/

/-- Step t writes back to the memory result its row block of the specification's new memories. -/
theorem flushed7_eq (c : Dev nD) (t : Fin cfg0.N) :
    (dats m 0 c).flushed 7 t = ((cfg0.win 7).blk t).view.read (Elt Ideal) (specC m c) := by
  obtain ⟨n, hn⟩ := t
  rw [Value.flushed7]
  show (cfg0.win 7).cut (grid0.coords ⟨n, hn⟩) ((outsAt0 m c n hn).2.1) = _
  rw [Steps.outsAt_eq m c hN0 n hn]
  funext y
  obtain ⟨r, j, rfl⟩ : ∃ (r : Fin 1000) (j : Fin 128), y = (ix2 r j : S1000x128.Idx) :=
    ⟨y 0, y 1, eq_ix2 (n0 := 1000) (n1 := 128) y⟩
  show bodyC (iblk m c 0 ⟨n, hn⟩) (iblk m c 1 ⟨n, hn⟩) (Steps.wts m c hN0) (iblk m c 3 ⟨n, hn⟩) (iblk m c 5 ⟨n, hn⟩) (ix2 r j)
      = specC m c (((cfg0.win 7).blk ⟨n, hn⟩).view.emb (ix2 r j))
  rw [emb7]
  exact (pointC m c n hn r j).trans (Cert.Spec.C_apply _ _ _ _ _ _ _ _).symm

/-- Step t writes back to the hidden result its row block of the specification's new hidden states. -/
theorem flushed6_eq (c : Dev nD) (t : Fin cfg0.N) :
    (dats m 0 c).flushed 6 t = ((cfg0.win 6).blk t).view.read (Elt Ideal) (specH m c) := by
  obtain ⟨n, hn⟩ := t
  rw [Value.flushed6]
  show (cfg0.win 6).cut (grid0.coords ⟨n, hn⟩) ((outsAt0 m c n hn).1) = _
  rw [Steps.outsAt_eq m c hN0 n hn]
  funext y
  obtain ⟨r, j, rfl⟩ : ∃ (r : Fin 1000) (j : Fin 128), y = (ix2 r j : S1000x128.Idx) :=
    ⟨y 0, y 1, eq_ix2 (n0 := 1000) (n1 := 128) y⟩
  show bodyH (iblk m c 0 ⟨n, hn⟩) (iblk m c 1 ⟨n, hn⟩) (Steps.wts m c hN0) (iblk m c 3 ⟨n, hn⟩) (iblk m c 5 ⟨n, hn⟩) (ix2 r j)
      = specH m c (((cfg0.win 6).blk ⟨n, hn⟩).view.emb (ix2 r j))
  rw [emb6]
  exact (pointH m c n hn r j).trans (Cert.Spec.H_apply _ _ _ _ _ _ _ _).symm

/-- After the run the memory result array is the specification's array of new memories. -/
theorem final7 (c : Dev nD) : (dats m 0 c).arrAt 7 cfg0.N = specC m c :=
  (dats m 0 c).arrAt_eq_of_cover 7 (specC m c) (fun t _ => flushed7_eq m c t) cover7

/-- After the run the hidden result array is the specification's array of new hidden states. -/
theorem final6 (c : Dev nD) : (dats m 0 c).arrAt 6 cfg0.N = specH m c :=
  (dats m 0 c).arrAt_eq_of_cover 6 (specH m c) (fun t _ => flushed6_eq m c t) cover6

/-- The run: every weakly fair execution ends with the two result arrays at the specification's arrays of the launch
    arguments, and the arguments unchanged. -/
theorem run : θ_run defs (onTc (τ := τ) (main (F := Ideal))) ⟨m, fun _ => 0, ρ⟩ fun r => ∀ c : Dev nD,
      r.2.mem ((c : Thread nD τ).loc main_v0_0) = specH m c
      ∧ r.2.mem ((c : Thread nD τ).loc main_v0_1) = specC m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final6 m c), (h c).2.1.trans (final7 m c), (h c).2.2⟩)
    (Value.run_blocks m ρ)

end Cert.KernelIdeal.Final

end
-- ==== Proof.lean ====
/-
  A tree-LSTM cell over 10000 nodes with ten children each, computed by a fused kernel in ten grid steps of 1000 nodes,
  against its plain array-program reference: both end with the same new hidden states and new memories, as extended
  reals, whatever the inputs.

  One function of the six argument arrays (Proof/Spec.lean) says what both compute: per node, the ten children's
  hidden rows laid end to end; the forget gates as the logistic function of that row times the forget weights plus
  a bias; the children's memories weighted by their forget gates and summed over the children; three further gates
  from the same row times the gate weights plus a bias; the new memory as input gate times update gate plus that
  sum; the new hidden state as output gate times the hyperbolic tangent of the new memory.
    The reference is that function operation by operation (Proof/RefSpec.lean): its 1 / (1 + exp (-x)) is the logistic
  function on the extended reals by definition, and its two matrix products and its sum over the children are the
  function's finite sums.
    The kernel differs in arrangement only. It reads the mailboxes child-major; lays a block's hidden rows side by side
  in a buffer and multiplies them ONCE by the forget weights and the transposed gate weights set side by side in a
  second buffer, which it fills at the first grid step and keeps for the nine others; and adds the ten
  gate-times-memory products one after another. A column of the wide product is a column of one of the two products,
  with the same terms in the same order, and ten terms added left to right are their sum: no step moves a factor across
  a sum or cancels anything, so nothing has to be finite. What a grid step leaves in its output blocks is read off the
  run of the kernel body (Proof/KBody.lean, KPieces.lean, KValue.lean), the weight buffer is followed through the ten
  steps by induction (KSteps.lean), each block is placed in its array (KBlocks.lean), and the ten row blocks fill the
  two result arrays (KFinal.lean).
    The kernel's idealization rewrote no operation, so the kernel's text read at the exact model is the idealized
  kernel, and every program runs to completion leaving its arguments as they were.
-/
import proofs.«159745_g52183852646691_cont_8to1_c_618_28_alg».proof.Defs
import proofs.«159745_g52183852646691_cont_8to1_c_618_28_alg».proof.Proof.Gen.Kernel
import proofs.«159745_g52183852646691_cont_8to1_c_618_28_alg».proof.Proof.Gen.Kernel.Skeleton
import proofs.«159745_g52183852646691_cont_8to1_c_618_28_alg».proof.Proof.Gen.Kernel.Launch
import proofs.«159745_g52183852646691_cont_8to1_c_618_28_alg».proof.Proof.Gen.Kernel.Points
import proofs.«159745_g52183852646691_cont_8to1_c_618_28_alg».proof.Proof.Gen.Kernel.Frame
import proofs.«159745_g52183852646691_cont_8to1_c_618_28_alg».proof.Proof.Gen.KernelIdeal
import proofs.«159745_g52183852646691_cont_8to1_c_618_28_alg».proof.Proof.Gen.KernelIdeal.Skeleton
import proofs.«159745_g52183852646691_cont_8to1_c_618_28_alg».proof.Proof.Gen.KernelIdeal.Launch
import proofs.«159745_g52183852646691_cont_8to1_c_618_28_alg».proof.Proof.Gen.KernelIdeal.Points
import proofs.«159745_g52183852646691_cont_8to1_c_618_28_alg».proof.Proof.Gen.KernelIdeal.Frame
import proofs.«159745_g52183852646691_cont_8to1_c_618_28_alg».proof.Proof.Gen.ReferenceIdeal
import proofs.«159745_g52183852646691_cont_8to1_c_618_28_alg».proof.Proof.Gen.Pre_finite_inputs
import proofs.«159745_g52183852646691_cont_8to1_c_618_28_alg».proof.Proof.Gen.KernelIdeal.Value
import proofs.«159745_g52183852646691_cont_8to1_c_618_28_alg».proof.Proof.Gen.ReferenceIdeal.Run
import proofs.«159745_g52183852646691_cont_8to1_c_618_28_alg».proof.Proof.Gen.ReferenceIdeal.Read
import proofs.«159745_g52183852646691_cont_8to1_c_618_28_alg».proof.Proof.RefSpec
import proofs.«159745_g52183852646691_cont_8to1_c_618_28_alg».proof.Proof.KFinal
import Idealize.ShloMosaic.Adequacy
import Idealize.ShloMosaic.Init

noncomputable section

namespace Cert.Proof

open Idealize.ShloMosaic Idealize.ShloMosaic.TcCoe Idealize.SL.Sem

/-- The kernel as printed runs to completion and leaves its arguments as they were. -/
theorem frame_k : Cert.frame_Kernel :=
  fun m ρ _ => Cert.Kernel.Gen.frame m ρ

/-- So does the kernel read at the exact model. -/
theorem frame_ki : Cert.frame_KernelIdeal :=
  fun m ρ _ => Cert.KernelIdeal.Gen.frame m ρ

/-- So does the reference: its run with the two results dropped. -/
theorem frame_ri : Cert.frame_ReferenceIdeal :=
  fun m ρ _ => (θ_run Cert.ReferenceIdeal.defs _ _).mono (fun _ h c => (h c).2.2)
    (Cert.ReferenceIdeal.Value.run (F := Ideal) m ρ)

/-- The idealization rewrote no operation of the kernel. -/
theorem preserves : Cert.preserves_Kernel_KernelIdeal := trivial

/-- From memories that agree on the six arguments both programs end with the specification's new hidden states and
    new memories of those arguments. -/
theorem algebraic : Cert.algebraic_KernelIdeal_ReferenceIdeal := by
  intro m ρ m' ρ' _ hagree
  refine ⟨fun c => Cert.KernelIdeal.Final.specH m c, fun c => Cert.KernelIdeal.Final.specC m c,
    Cert.KernelIdeal.Final.run m ρ, ?_⟩
  refine (θ_run Cert.ReferenceIdeal.defs _ _).mono (fun _ h c => ⟨?_, ?_, (h c).2.2⟩)
    (Cert.ReferenceIdeal.Value.run (F := Ideal) m' ρ')
  · obtain ⟨a0, a1, a2, a3, a4, a5⟩ := hagree c
    refine (h c).1.trans ((Cert.ReferenceIdeal.Read.val_main_v37_eq _ _ _ _ _ _).trans
      ((Cert.ReferenceIdeal.RefSpec.h_eq _ _ _ _ _ _).trans ?_))
    rw [a0, a1, a2, a3, a4, a5]
  · obtain ⟨a0, a1, a2, a3, a4, a5⟩ := hagree c
    refine (h c).2.1.trans ((Cert.ReferenceIdeal.Read.val_main_v35_eq _ _ _ _ _ _).trans
      ((Cert.ReferenceIdeal.RefSpec.c_eq _ _ _ _ _ _).trans ?_))
    rw [a0, a1, a2, a3, a4, a5]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
